-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S64x1 .f32) (main_arg9 : FVec F S64x1 .f32) (main_arg10 : FVec F S1 .f32) (main_v33 : IVec S_ 1) : IVec S_ 1 :=
  let main_v34 : FVec F S64x1 .f32 := Host.absf main_arg8
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S64x1 .f32 := Host.absf main_arg9
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S64x64 .f32) (main_arg6 : FVec F S64x64 .f32) (main_arg7 : FVec F S64 .f32) (main_arg8 : FVec F S64x1 .f32) (main_arg9 : FVec F S64x1 .f32) (main_arg10 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_v33

def fn {F : FTy → Type} [FloatOps F] (main_arg0 : FVec F S100000x32 .f32) (main_arg1 : IVec S2x1600000 32) (main_arg2 : FVec F S32x64 .f32) (main_arg3 : FVec F S32x64 .f32) (main_arg4 : FVec F S64 .f32) (main_arg5 : FVec F S64x64 .f32) (main_arg6 : FVec F S64x64 .f32) (main_arg7 : FVec F S64 .f32) (main_arg8 : FVec F S64x1 .f32) (main_arg9 : FVec F S64x1 .f32) (main_arg10 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x64 .f32 := Host.absf main_arg2
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S32x64 .f32 := Host.absf main_arg3
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x32 : Shape := ⟨2, ![1600000, 32]⟩
abbrev S1x64 : Shape := ⟨2, ![1, 64]⟩
abbrev S100000x64 : Shape := ⟨2, ![100000, 64]⟩
abbrev S5000x32 : Shape := ⟨2, ![5000, 32]⟩
abbrev S5000x1 : Shape := ⟨2, ![5000, 1]⟩
abbrev S5000x64 : Shape := ⟨2, ![5000, 64]⟩
abbrev S1600000x64 : Shape := ⟨2, ![1600000, 64]⟩
abbrev S1x1 : Shape := ⟨2, ![1, 1]⟩

abbrev nBuf : Space → Nat
  | .hbm => 72
  | .vmem => 33
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x64, .f32⟩
  | .hbm, ⟨3, _⟩ => ⟨S32x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x1, .f32⟩
  | .hbm, ⟨9, _⟩ => ⟨S64x1, .f32⟩
  | .hbm, ⟨10, _⟩ => ⟨S1, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S100000x1, .f32⟩
  | .hbm, ⟨22, _⟩ => ⟨S100000x32, .bf16⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x32, .bf16⟩
  | .hbm, ⟨32, _⟩ => ⟨S1600000x32, .f32⟩
  | .hbm, ⟨33, _⟩ => ⟨S_, .f32⟩
  | .hbm, ⟨34, _⟩ => ⟨S100000x32, .f32⟩
  | .hbm, ⟨35, _⟩ => ⟨S1600000x1, .i32⟩
  | .hbm, ⟨36, _⟩ => ⟨S100000x32, .f32⟩
  | .hbm, ⟨37, _⟩ => ⟨S1x64, .f32⟩
  | .hbm, ⟨38, _⟩ => ⟨S100000x64, .bf16⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x64, .bf16⟩
  | .hbm, ⟨48, _⟩ => ⟨S1600000x64, .f32⟩
  | .hbm, ⟨49, _⟩ => ⟨S_, .f32⟩
  | .hbm, ⟨50, _⟩ => ⟨S100000x64, .f32⟩
  | .hbm, ⟨51, _⟩ => ⟨S1600000x1, .i32⟩
  | .hbm, ⟨52, _⟩ => ⟨S100000x64, .f32⟩
  | .hbm, ⟨53, _⟩ => ⟨S1x64, .f32⟩
  | .hbm, ⟨54, _⟩ => ⟨S100000x64, .bf16⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x64, .bf16⟩
  | .hbm, ⟨64, _⟩ => ⟨S1600000x64, .f32⟩
  | .hbm, ⟨65, _⟩ => ⟨S_, .f32⟩
  | .hbm, ⟨66, _⟩ => ⟨S100000x64, .f32⟩
  | .hbm, ⟨67, _⟩ => ⟨S1600000x1, .i32⟩
  | .hbm, ⟨68, _⟩ => ⟨S100000x64, .f32⟩
  | .hbm, ⟨69, _⟩ => ⟨S1x1, .f32⟩
  | .hbm, ⟨70, _⟩ => ⟨S100000x1, .f32⟩
  | .hbm, ⟨71, _⟩ => ⟨S100000, .f32⟩
  | .local _ .vmem, ⟨0, _⟩ => ⟨S5000x32, .f32⟩
  | .local _ .vmem, ⟨1, _⟩ => ⟨S5000x32, .f32⟩
  | .local _ .vmem, ⟨2, _⟩ => ⟨S5000x32, .bf16⟩
  | .local _ .vmem, ⟨3, _⟩ => ⟨S5000x32, .bf16⟩
  | .local _ .vmem, ⟨4, _⟩ => ⟨S5000x1, .f32⟩
  | .local _ .vmem, ⟨5, _⟩ => ⟨S5000x1, .f32⟩
  | .local _ .vmem, ⟨6, _⟩ => ⟨S32x64, .f32⟩
  | .local _ .vmem, ⟨7, _⟩ => ⟨S32x64, .f32⟩
  | .local _ .vmem, ⟨8, _⟩ => ⟨S1x64, .f32⟩
  | .local _ .vmem, ⟨9, _⟩ => ⟨S5000x64, .bf16⟩
  | .local _ .vmem, ⟨10, _⟩ => ⟨S5000x64, .bf16⟩
  | .local _ .vmem, ⟨11, _⟩ => ⟨S5000x64, .f32⟩
  | .local _ .vmem, ⟨12, _⟩ => ⟨S5000x64, .f32⟩
  | .local _ .vmem, ⟨13, _⟩ => ⟨S5000x64, .bf16⟩
  | .local _ .vmem, ⟨14, _⟩ => ⟨S5000x64, .bf16⟩
  | .local _ .vmem, ⟨15, _⟩ => ⟨S5000x1, .f32⟩
  | .local _ .vmem, ⟨16, _⟩ => ⟨S5000x1, .f32⟩
  | .local _ .vmem, ⟨17, _⟩ => ⟨S64x64, .f32⟩
  | .local _ .vmem, ⟨18, _⟩ => ⟨S64x64, .f32⟩
  | .local _ .vmem, ⟨19, _⟩ => ⟨S1x64, .f32⟩
  | .local _ .vmem, ⟨20, _⟩ => ⟨S5000x64, .bf16⟩
  | .local _ .vmem, ⟨21, _⟩ => ⟨S5000x64, .bf16⟩
  | .local _ .vmem, ⟨22, _⟩ => ⟨S5000x64, .f32⟩
  | .local _ .vmem, ⟨23, _⟩ => ⟨S5000x64, .f32⟩
  | .local _ .vmem, ⟨24, _⟩ => ⟨S5000x64, .bf16⟩
  | .local _ .vmem, ⟨25, _⟩ => ⟨S5000x64, .bf16⟩
  | .local _ .vmem, ⟨26, _⟩ => ⟨S5000x1, .f32⟩
  | .local _ .vmem, ⟨27, _⟩ => ⟨S5000x1, .f32⟩
  | .local _ .vmem, ⟨28, _⟩ => ⟨S64x1, .f32⟩
  | .local _ .vmem, ⟨29, _⟩ => ⟨S64x1, .f32⟩
  | .local _ .vmem, ⟨30, _⟩ => ⟨S1x1, .f32⟩
  | .local _ .vmem, ⟨31, _⟩ => ⟨S5000x1, .f32⟩
  | .local _ .vmem, ⟨32, _⟩ => ⟨S5000x1, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_3 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_6 : Ref sig .tc := ⟨.hbm, 55, rfl⟩
abbrev main_v36 : Ref sig .tc := ⟨.hbm, 56, rfl⟩
abbrev main_v37 : Ref sig .tc := ⟨.hbm, 57, rfl⟩
abbrev main_c_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bitsLt_bf16_f32 : FTy.bits .bf16 < FTy.bits .f32
  bcast_S_S100000x32 : S_.BroadcastsInDim S100000x32 (![] : Fin 0 → Fin S100000x32.rank)
  shapeCasts_S64_S1x64 : S64.ShapeCasts S1x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  broadcasts_S5000x1_S5000x32 : S5000x1.Broadcasts S5000x32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S100000x64 : S_.BroadcastsInDim S100000x64 (![] : Fin 0 → Fin S100000x64.rank)
  shapeCasts_S5000x64_S5000x64 : S5000x64.ShapeCasts S5000x64
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  shapeCasts_S100000x1_S100000 : S100000x1.ShapeCasts S100000
  scatter_S100000_S1600000x1_S1600000_n_0_0_1_wf : ScatterDims.WF S100000 S1600000x1 S1600000 [] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x64_S5000x64_1_0_0_1_n_n_wf : DotDims.WF S5000x32 S32x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S100000x32.size a
  hwx0_1 : ∀ i : grid0.Coords, EltTy.bits .bf16 = 32 ∨ (Rect.block (s := S100000x32) S5000x32.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x64.size a ≤ S32x64.size a
  hwx0_4 : ∀ i : grid0.Coords, EltTy.bits .f32 = 32 ∨ (Rect.block (s := S32x64) S32x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .bf16 = 32 ∨ (Rect.block (s := S100000x64) S5000x64.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .bf16 = 32 ∨ (Rect.block (s := S100000x64) S5000x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .bf16 = 32 ∨ (Rect.block (s := S100000x64) S5000x64.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .bf16 = 32 ∨ (Rect.block (s := S100000x64) S5000x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x1.size a ≤ S64x1.size a
  hwx2_3 : ∀ i : grid2.Coords, EltTy.bits .f32 = 32 ∨ (Rect.block (s := S64x1) S64x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x1.size a ≤ S64x1.size a
  hwx2_4 : ∀ i : grid2.Coords, EltTy.bits .f32 = 32 ∨ (Rect.block (s := S64x1) S64x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x1.size a ≤ S100000x1.size a
  hwx2_6 : ∀ i : grid2.Coords, EltTy.bits .f32 = 32 ∨ (Rect.block (s := S100000x1) S5000x1.size (cc2_transform_6 i) (hinb2_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_v20) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S32x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v33) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v46) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S64x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S64x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v48) S5000x1.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩
abbrev S1x1 : Shape := ⟨2, ![1, 1]⟩

abbrev nBuf : Space → Nat
  | .hbm => 123
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x64, .f32⟩
  | .hbm, ⟨3, _⟩ => ⟨S32x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x1, .f32⟩
  | .hbm, ⟨9, _⟩ => ⟨S64x1, .f32⟩
  | .hbm, ⟨10, _⟩ => ⟨S1, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x32, .f32⟩
  | .hbm, ⟨24, _⟩ => ⟨S_, .f32⟩
  | .hbm, ⟨25, _⟩ => ⟨S100000x32, .f32⟩
  | .hbm, ⟨26, _⟩ => ⟨S1600000x1, .i32⟩
  | .hbm, ⟨27, _⟩ => ⟨S100000x32, .f32⟩
  | .hbm, ⟨28, _⟩ => ⟨S_, .f32⟩
  | .hbm, ⟨29, _⟩ => ⟨S1600000, .f32⟩
  | .hbm, ⟨30, _⟩ => ⟨S_, .f32⟩
  | .hbm, ⟨31, _⟩ => ⟨S100000, .f32⟩
  | .hbm, ⟨32, _⟩ => ⟨S1600000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x32, .f32⟩
  | .hbm, ⟨39, _⟩ => ⟨S100000x32, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S1x64, .f32⟩
  | .hbm, ⟨44, _⟩ => ⟨S100000x64, .f32⟩
  | .hbm, ⟨45, _⟩ => ⟨S100000x64, .f32⟩
  | .hbm, ⟨46, _⟩ => ⟨S_, .f32⟩
  | .hbm, ⟨47, _⟩ => ⟨S100000x64, .f32⟩
  | .hbm, ⟨48, _⟩ => ⟨S100000x64, .f32⟩
  | .hbm, ⟨49, _⟩ => ⟨S1x1600000, .i32⟩
  | .hbm, ⟨50, _⟩ => ⟨S1600000, .i32⟩
  | .hbm, ⟨51, _⟩ => ⟨S1x1600000, .i32⟩
  | .hbm, ⟨52, _⟩ => ⟨S1600000, .i32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x64, .f32⟩
  | .hbm, ⟨62, _⟩ => ⟨S_, .f32⟩
  | .hbm, ⟨63, _⟩ => ⟨S100000x64, .f32⟩
  | .hbm, ⟨64, _⟩ => ⟨S1600000x1, .i32⟩
  | .hbm, ⟨65, _⟩ => ⟨S100000x64, .f32⟩
  | .hbm, ⟨66, _⟩ => ⟨S_, .f32⟩
  | .hbm, ⟨67, _⟩ => ⟨S1600000, .f32⟩
  | .hbm, ⟨68, _⟩ => ⟨S_, .f32⟩
  | .hbm, ⟨69, _⟩ => ⟨S100000, .f32⟩
  | .hbm, ⟨70, _⟩ => ⟨S1600000x1, .i32⟩
  | .hbm, ⟨71, _⟩ => ⟨S100000, .f32⟩
  | .hbm, ⟨72, _⟩ => ⟨S_, .f32⟩
  | .hbm, ⟨73, _⟩ => ⟨S100000, .f32⟩
  | .hbm, ⟨74, _⟩ => ⟨S100000, .f32⟩
  | .hbm, ⟨75, _⟩ => ⟨S100000x1, .f32⟩
  | .hbm, ⟨76, _⟩ => ⟨S100000x64, .f32⟩
  | .hbm, ⟨77, _⟩ => ⟨S100000x64, .f32⟩
  | .hbm, ⟨78, _⟩ => ⟨S100000x64, .f32⟩
  | .hbm, ⟨79, _⟩ => ⟨S100000x64, .f32⟩
  | .hbm, ⟨80, _⟩ => ⟨S100000x64, .f32⟩
  | .hbm, ⟨81, _⟩ => ⟨S1x64, .f32⟩
  | .hbm, ⟨82, _⟩ => ⟨S100000x64, .f32⟩
  | .hbm, ⟨83, _⟩ => ⟨S100000x64, .f32⟩
  | .hbm, ⟨84, _⟩ => ⟨S_, .f32⟩
  | .hbm, ⟨85, _⟩ => ⟨S100000x64, .f32⟩
  | .hbm, ⟨86, _⟩ => ⟨S100000x64, .f32⟩
  | .hbm, ⟨87, _⟩ => ⟨S1x1600000, .i32⟩
  | .hbm, ⟨88, _⟩ => ⟨S1600000, .i32⟩
  | .hbm, ⟨89, _⟩ => ⟨S1x1600000, .i32⟩
  | .hbm, ⟨90, _⟩ => ⟨S1600000, .i32⟩
  | .hbm, ⟨91, _⟩ => ⟨S_, .i32⟩
  | .hbm, ⟨92, _⟩ => ⟨S1600000, .i32⟩
  | .hbm, ⟨93, _⟩ => ⟨S1600000, .i1⟩
  | .hbm, ⟨94, _⟩ => ⟨S_, .i32⟩
  | .hbm, ⟨95, _⟩ => ⟨S1600000, .i32⟩
  | .hbm, ⟨96, _⟩ => ⟨S1600000, .i32⟩
  | .hbm, ⟨97, _⟩ => ⟨S1600000, .i32⟩
  | .hbm, ⟨98, _⟩ => ⟨S1600000x1, .i32⟩
  | .hbm, ⟨99, _⟩ => ⟨S1600000x64, .f32⟩
  | .hbm, ⟨100, _⟩ => ⟨S_, .f32⟩
  | .hbm, ⟨101, _⟩ => ⟨S100000x64, .f32⟩
  | .hbm, ⟨102, _⟩ => ⟨S1600000x1, .i32⟩
  | .hbm, ⟨103, _⟩ => ⟨S100000x64, .f32⟩
  | .hbm, ⟨104, _⟩ => ⟨S_, .f32⟩
  | .hbm, ⟨105, _⟩ => ⟨S1600000, .f32⟩
  | .hbm, ⟨106, _⟩ => ⟨S_, .f32⟩
  | .hbm, ⟨107, _⟩ => ⟨S100000, .f32⟩
  | .hbm, ⟨108, _⟩ => ⟨S1600000x1, .i32⟩
  | .hbm, ⟨109, _⟩ => ⟨S100000, .f32⟩
  | .hbm, ⟨110, _⟩ => ⟨S_, .f32⟩
  | .hbm, ⟨111, _⟩ => ⟨S100000, .f32⟩
  | .hbm, ⟨112, _⟩ => ⟨S100000, .f32⟩
  | .hbm, ⟨113, _⟩ => ⟨S100000x1, .f32⟩
  | .hbm, ⟨114, _⟩ => ⟨S100000x64, .f32⟩
  | .hbm, ⟨115, _⟩ => ⟨S100000x64, .f32⟩
  | .hbm, ⟨116, _⟩ => ⟨S100000x1, .f32⟩
  | .hbm, ⟨117, _⟩ => ⟨S100000x1, .f32⟩
  | .hbm, ⟨118, _⟩ => ⟨S100000x1, .f32⟩
  | .hbm, ⟨119, _⟩ => ⟨S1x1, .f32⟩
  | .hbm, ⟨120, _⟩ => ⟨S100000x1, .f32⟩
  | .hbm, ⟨121, _⟩ => ⟨S100000x1, .f32⟩
  | .hbm, ⟨122, _⟩ => ⟨S100000, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_4 : Ref sig .tc := ⟨.hbm, 53, rfl⟩
abbrev main_v34 : Ref sig .tc := ⟨.hbm, 54, rfl⟩
abbrev main_v35 : Ref sig .tc := ⟨.hbm, 55, rfl⟩
abbrev main_c_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_7 : Ref sig .tc := ⟨.hbm, 66, rfl⟩
abbrev main_v44 : Ref sig .tc := ⟨.hbm, 67, rfl⟩
abbrev main_cst_8 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_10 : Ref sig .tc := ⟨.hbm, 91, rfl⟩
abbrev main_v64 : Ref sig .tc := ⟨.hbm, 92, rfl⟩
abbrev main_v65 : Ref sig .tc := ⟨.hbm, 93, rfl⟩
abbrev main_c_11 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_12 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_13 : Ref sig .tc := ⟨.hbm, 104, rfl⟩
abbrev main_v74 : Ref sig .tc := ⟨.hbm, 105, rfl⟩
abbrev main_cst_14 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_15 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  scatter_S100000_S1600000x1_S1600000_n_0_0_1_wf : ScatterDims.WF S100000 S1600000x1 S1600000 [] [0] [0] 1
  dot_S100000x32_S32x64_S100000x64_1_0_0_1_n_n_wf : DotDims.WF S100000x32 S32x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.LibSageLayer.lean ====
/-
  One mean-aggregation layer of a graph network as a function of whole arrays, over the extended reals.

  For a node `p` with neighbour sum `agg (p, ·)`, neighbour count `cnt (p, 0)` and own features `h (p, ·)` the layer's
  entry at `(p, q)` is

      (∑ k, (agg (p, k) / max (cnt (p, 0)) 1) * wl (k, q)  +  ∑ k, h (p, k) * wr (k, q))  +  b (0, q)

  with the count kept as an `[M, 1]` column and the bias as a `[1, N]` row.  The quotient is the extended reals' total
  division, the constant `1` is kept as the float word it is printed as (the same word on every side, never evaluated), and
  the two sums and the bias are added in this order.  `layerRelu` is the same followed by a maximum with the word `0`.
  Row `p` of the result depends on row `p` of `agg`, `h` and `cnt` only, so a block of rows of the result is the layer
  of the same block of rows of the three: that is what makes a row-tiled computation the whole-array one.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- The float word of `1.0`, read at the ideal instance. -/
abbrev oneWord : EReal := Ideal.ofBits .f32 0x3F800000#32
/-- The float word of `0.0`, read at the ideal instance. -/
abbrev zeroWord : EReal := Ideal.ofBits .f32 0x00000000#32

/-- The layer without its activation, entry by entry. -/
def layer {M K N : ℕ} (agg h : (⟨2, ![M, K]⟩ : Shape).Idx → EReal) (cnt : (⟨2, ![M, 1]⟩ : Shape).Idx → EReal)
    (wl wr : (⟨2, ![K, N]⟩ : Shape).Idx → EReal) (b : (⟨2, ![1, N]⟩ : Shape).Idx → EReal) :
    (⟨2, ![M, N]⟩ : Shape).Idx → EReal := fun i =>
  (∑ k : Fin K, Ideal.div (agg (ix2 (i 0) k)) (max (cnt (ix2 (i 0) (0 : Fin 1))) oneWord) * wl (ix2 k (i 1))
    + ∑ k : Fin K, h (ix2 (i 0) k) * wr (ix2 k (i 1))) + b (ix2 (0 : Fin 1) (i 1))

/-- The layer followed by its activation `max · 0`, entry by entry. -/
def layerRelu {M K N : ℕ} (agg h : (⟨2, ![M, K]⟩ : Shape).Idx → EReal) (cnt : (⟨2, ![M, 1]⟩ : Shape).Idx → EReal)
    (wl wr : (⟨2, ![K, N]⟩ : Shape).Idx → EReal) (b : (⟨2, ![1, N]⟩ : Shape).Idx → EReal) :
    (⟨2, ![M, N]⟩ : Shape).Idx → EReal := fun i => max (layer agg h cnt wl wr b i) zeroWord

theorem layer_apply {M K N : ℕ} (agg h : (⟨2, ![M, K]⟩ : Shape).Idx → EReal) (cnt : (⟨2, ![M, 1]⟩ : Shape).Idx → EReal)
    (wl wr : (⟨2, ![K, N]⟩ : Shape).Idx → EReal) (b : (⟨2, ![1, N]⟩ : Shape).Idx → EReal) (p : Fin M) (q : Fin N) :
    layer agg h cnt wl wr b (ix2 p q)
      = (∑ k : Fin K, Ideal.div (agg (ix2 p k)) (max (cnt (ix2 p (0 : Fin 1))) oneWord) * wl (ix2 k q)
          + ∑ k : Fin K, h (ix2 p k) * wr (ix2 k q)) + b (ix2 (0 : Fin 1) q) := rfl

theorem layerRelu_apply {M K N : ℕ} (agg h : (⟨2, ![M, K]⟩ : Shape).Idx → EReal) (cnt : (⟨2, ![M, 1]⟩ : Shape).Idx → EReal)
    (wl wr : (⟨2, ![K, N]⟩ : Shape).Idx → EReal) (b : (⟨2, ![1, N]⟩ : Shape).Idx → EReal) (p : Fin M) (q : Fin N) :
    layerRelu agg h cnt wl wr b (ix2 p q) = max (layer agg h cnt wl wr b (ix2 p q)) zeroWord := rfl

/-- Row `p'` of the layer of one family of arrays is row `p` of the layer of another family when those two rows of the
    neighbour sums and of the features agree, the count agrees there, and the weights and the bias are the same. -/
theorem layer_row_congr {M M' K N : ℕ} (agg h : (⟨2, ![M, K]⟩ : Shape).Idx → EReal) (cnt : (⟨2, ![M, 1]⟩ : Shape).Idx → EReal)
    (agg' h' : (⟨2, ![M', K]⟩ : Shape).Idx → EReal) (cnt' : (⟨2, ![M', 1]⟩ : Shape).Idx → EReal)
    (wl wr : (⟨2, ![K, N]⟩ : Shape).Idx → EReal) (b : (⟨2, ![1, N]⟩ : Shape).Idx → EReal)
    (wl' wr' : (⟨2, ![K, N]⟩ : Shape).Idx → EReal) (b' : (⟨2, ![1, N]⟩ : Shape).Idx → EReal)
    (p : Fin M) (p' : Fin M') (q : Fin N)
    (hagg : ∀ k : Fin K, agg' (ix2 p' k) = agg (ix2 p k)) (hh : ∀ k : Fin K, h' (ix2 p' k) = h (ix2 p k))
    (hcnt : cnt' (ix2 p' (0 : Fin 1)) = cnt (ix2 p (0 : Fin 1))) (hwl : wl' = wl) (hwr : wr' = wr) (hb : b' = b) :
    layer agg' h' cnt' wl' wr' b' (ix2 p' q) = layer agg h cnt wl wr b (ix2 p q) := by
  subst hwl hwr hb
  rw [layer_apply, layer_apply, hcnt]
  refine congrArg₂ (· + ·) (congrArg₂ (· + ·) (Finset.sum_congr rfl fun k _ => ?_) (Finset.sum_congr rfl fun k _ => ?_)) rfl
  · rw [hagg k]
  · rw [hh k]

/-- The same with the activation. -/
theorem layerRelu_row_congr {M M' K N : ℕ} (agg h : (⟨2, ![M, K]⟩ : Shape).Idx → EReal) (cnt : (⟨2, ![M, 1]⟩ : Shape).Idx → EReal)
    (agg' h' : (⟨2, ![M', K]⟩ : Shape).Idx → EReal) (cnt' : (⟨2, ![M', 1]⟩ : Shape).Idx → EReal)
    (wl wr : (⟨2, ![K, N]⟩ : Shape).Idx → EReal) (b : (⟨2, ![1, N]⟩ : Shape).Idx → EReal)
    (wl' wr' : (⟨2, ![K, N]⟩ : Shape).Idx → EReal) (b' : (⟨2, ![1, N]⟩ : Shape).Idx → EReal)
    (p : Fin M) (p' : Fin M') (q : Fin N)
    (hagg : ∀ k : Fin K, agg' (ix2 p' k) = agg (ix2 p k)) (hh : ∀ k : Fin K, h' (ix2 p' k) = h (ix2 p k))
    (hcnt : cnt' (ix2 p' (0 : Fin 1)) = cnt (ix2 p (0 : Fin 1))) (hwl : wl' = wl) (hwr : wr' = wr) (hb : b' = b) :
    layerRelu agg' h' cnt' wl' wr' b' (ix2 p' q) = layerRelu agg h cnt wl wr b (ix2 p q) :=
  congrArg (max · zeroWord) (layer_row_congr agg h cnt agg' h' cnt' wl wr b wl' wr' b' p p' q hagg hh hcnt hwl hwr hb)

end Cert.Sage

end
-- ==== Proof.KernelNet.lean ====
/-
  The kernel program's result as one function of its argument arrays, over the extended reals.

  Around its three row-tiled dense stages the program gathers the rows `h[src]` of the current node features and adds
  them up per destination node (`aggregate`), once per layer, and counts the edges arriving at each node once
  (`count`, kept as a column).  Each dense stage is `Sage.layer` (with its activation for the first two) of the
  neighbour sums, the node features, the count column, two weight matrices and a bias row.  The edge list is read
  through the same index arithmetic every time (`source`, `target`, a negative source index wrapped once by the
  number of nodes).  Narrowing an array to a shorter float format and widening it back are kept as the operations
  they are printed as; at the ideal instance they are the identity.
-/
import proofs.«112658_j83623013253774_2_alg».proof.Proof.Gen.KernelIdeal
import Idealize.ShloMosaic.PureOps.Ideal
import proofs.«112658_j83623013253774_2_alg».proof.Proof.LibSageLayer

noncomputable section

namespace Cert.KernelIdeal.Net

open Cert.KernelIdeal Cert.KernelIdeal.Gen Idealize.ShloMosaic

/-- Row 0 of the edge list: the source node of every edge. -/
def source (ei : IVec S2x1600000 32) : IVec S1600000 32 :=
  shapeCast S1600000 (extractStridedSlice S1x1600000 ![0, 0] ei slices_S2x1600000_S1x1600000_0_0) shapeCasts_S1x1600000_S1600000

/-- Row 1 of the edge list: the target node of every edge. -/
def target (ei : IVec S2x1600000 32) : IVec S1600000 32 :=
  shapeCast S1600000 (extractStridedSlice S1x1600000 ![1, 0] ei slices_S2x1600000_S1x1600000_1_0) shapeCasts_S1x1600000_S1600000

/-- The target nodes as the one-column index array the sums are scattered by. -/
def targetColumn (ei : IVec S2x1600000 32) : IVec S1600000x1 32 :=
  broadcastInDim S1600000x1 ![0] bcast_S1600000_S1600000x1_0 (target ei)

/-- The source nodes as the one-column index array rows are gathered by, a negative index wrapped by the node count. -/
def sourceColumn (ei : IVec S2x1600000 32) : IVec S1600000x1 32 :=
  broadcastInDim S1600000x1 ![0] bcast_S1600000_S1600000x1_0
    (select (cmpi .slt (source ei) (broadcastInDim S1600000 ![] bcast_S_S1600000 (constantI S_ 32 0#32)))
      (addi (source ei) (broadcastInDim S1600000 ![] bcast_S_S1600000 (constantI S_ 32 100000#32))) (source ei))

/-- The number of edges arriving at each node, as a column. -/
def count (ei : IVec S2x1600000 32) : FVec Ideal S100000x1 .f32 :=
  shapeCast S100000x1
    (Host.scatterAdd scatter_S100000_S1600000x1_S1600000_n_0_0_1
      (broadcastInDim S100000 ![] bcast_S_S100000 (constant (F := Ideal) S_ .f32 0x00000000#32)) (targetColumn ei)
      (broadcastInDim S1600000 ![] bcast_S_S1600000 (constant (F := Ideal) S_ .f32 0x3F800000#32)))
    shapeCasts_S100000_S100000x1

/-- The sum, per target node, of the 32 features of its edges' source nodes. -/
def aggregate32 (h : FVec Ideal S100000x32 .bf16) (ei : IVec S2x1600000 32) :
    FVec Ideal S100000x32 .f32 :=
  Host.scatterAdd scatter_S100000x32_S1600000x1_S1600000x32_1_0_0_1
    (broadcastInDim S100000x32 ![] bcast_S_S100000x32 (constant (F := Ideal) S_ .f32 0x00000000#32)) (targetColumn ei)
    (extf .f32 (Host.gather gather_S100000x32_S1600000x1_S1600000x32_1_0_n_n_0_1_132 h (sourceColumn ei)) bitsLt_bf16_f32)

/-- The sum, per target node, of the 64 features of its edges' source nodes. -/
def aggregate64 (h : FVec Ideal S100000x64 .bf16) (ei : IVec S2x1600000 32) :
    FVec Ideal S100000x64 .f32 :=
  Host.scatterAdd scatter_S100000x64_S1600000x1_S1600000x64_1_0_0_1
    (broadcastInDim S100000x64 ![] bcast_S_S100000x64 (constant (F := Ideal) S_ .f32 0x00000000#32)) (targetColumn ei)
    (extf .f32 (Host.gather gather_S100000x64_S1600000x1_S1600000x64_1_0_n_n_0_1_164 h (sourceColumn ei)) bitsLt_bf16_f32)

/-- The node features as the first stage reads them. -/
def features0 (x : FVec Ideal S100000x32 .f32) : FVec Ideal S100000x32 .bf16 :=
  truncf .bf16 x bitsLt_bf16_f32

/-- The node features after the first layer. -/
def hidden1 (x : FVec Ideal S100000x32 .f32) (ei : IVec S2x1600000 32)
    (wl0 wr0 : FVec Ideal S32x64 .f32) (b0 : FVec Ideal S64 .f32) :
    FVec Ideal S100000x64 .bf16 :=
  Cert.Sage.layerRelu (aggregate32 (features0 x) ei) (features0 x) (count ei) wl0 wr0 (shapeCast S1x64 b0 shapeCasts_S64_S1x64)

/-- The node features after the second layer. -/
def hidden2 (x : FVec Ideal S100000x32 .f32) (ei : IVec S2x1600000 32)
    (wl0 wr0 : FVec Ideal S32x64 .f32) (b0 : FVec Ideal S64 .f32)
    (wl1 wr1 : FVec Ideal S64x64 .f32) (b1 : FVec Ideal S64 .f32) :
    FVec Ideal S100000x64 .bf16 :=
  Cert.Sage.layerRelu (aggregate64 (hidden1 x ei wl0 wr0 b0) ei) (hidden1 x ei wl0 wr0 b0) (count ei) wl1 wr1
    (shapeCast S1x64 b1 shapeCasts_S64_S1x64)

/-- The last layer's one output column. -/
def scoreColumn (x : FVec Ideal S100000x32 .f32) (ei : IVec S2x1600000 32)
    (wl0 wr0 : FVec Ideal S32x64 .f32) (b0 : FVec Ideal S64 .f32)
    (wl1 wr1 : FVec Ideal S64x64 .f32) (b1 : FVec Ideal S64 .f32)
    (wl2 wr2 : FVec Ideal S64x1 .f32) (b2 : FVec Ideal S1 .f32) :
    FVec Ideal S100000x1 .f32 :=
  Cert.Sage.layer (aggregate64 (hidden2 x ei wl0 wr0 b0 wl1 wr1 b1) ei) (hidden2 x ei wl0 wr0 b0 wl1 wr1 b1) (count ei) wl2 wr2
    (shapeCast S1x1 b2 shapeCasts_S1_S1x1)

/-- The program's result: the score column laid out as a vector. -/
def score (x : FVec Ideal S100000x32 .f32) (ei : IVec S2x1600000 32)
    (wl0 wr0 : FVec Ideal S32x64 .f32) (b0 : FVec Ideal S64 .f32)
    (wl1 wr1 : FVec Ideal S64x64 .f32) (b1 : FVec Ideal S64 .f32)
    (wl2 wr2 : FVec Ideal S64x1 .f32) (b2 : FVec Ideal S1 .f32) :
    FVec Ideal S100000 .f32 :=
  shapeCast S100000 (scoreColumn x ei wl0 wr0 b0 wl1 wr1 b1 wl2 wr2 b2) shapeCasts_S100000x1_S100000

end Cert.KernelIdeal.Net

end
-- ==== Proof.KernelRun.lean ====
/-
  The kernel program's run read as values: at the end of every execution the result buffer holds what the fold of the
  program's segments leaves there, and that is the network `Net.score` of the eleven argument arrays.

  The program is four stretches of whole-array operations around three row-tiled dense stages.  The contents of the
  buffers at the eight boundaries between them are a fold from the launch memory.  Walking that fold forward, each
  buffer a later segment reads is identified with a function of the argument arrays: a stretch writes a buffer with
  the composition of its operations, a dense stage writes its output array with the layer of its six operand arrays
  (a hypothesis here, proved elsewhere) and leaves every other buffer as it was.
-/
import proofs.«112658_j83623013253774_2_alg».proof.Proof.PatchedKernelIdealFrame
import proofs.«112658_j83623013253774_2_alg».proof.Proof.KernelNet
import Idealize.ShloMosaic.Lib.StableHlo.Run

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch rule's implicit arguments are found by unifying its conclusion with this one, which takes unfolding
-- plain definitions in a metavariable's type
set_option backward.isDefEq.respectTransparency.types false in
/-- From any memory with zero counters every weakly fair execution of the program terminates, and in every final state
    the result buffer holds the last boundary's contents and every argument array is as launched. -/
theorem run_value : θ_run defs (onTc (τ := τ) (main (F := F))) ⟨m, fun _ => 0, ρ⟩ (fun r => ∀ c : Dev nD,
      r.2.mem ((c.tc : Thread nD τ).loc main_v49) = GenP.W7 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) GenP.adm (GenP.pdats m ρ) () GenP.cellOf_inj emb₁ defs₀ GenP.𝒱₀ GenP.L GenP.lv m ρ main (GenP.segs m ρ)
    (fun c Q => by rw [GenP.main_run m ρ c])
    (by simp only [GenP.segs, Pipeline.Seg.pipes_host, Pipeline.Seg.pipes_region, Pipeline.Seg.pipes_nil]; decide)
    (O₀ := 0) (hL := fun _ _ => rfl) (G := fun _ => iprop(emp))
    (u₀ := initOf (Pipeline.cells cfgs GenP.cellOf_inj) (Pipeline.launchToks cfgs GenP.cellOf_inj))
    (hu₀ := by
      iintro Hu; imodintro
      isplitl [Hu]
      · iapply (show (ownU (initOf (Pipeline.cells cfgs GenP.cellOf_inj) (Pipeline.launchToks cfgs GenP.cellOf_inj)) : sProp 𝕄)
            ⊢ BI.own (emb₁ (initOf (Pipeline.cells cfgs GenP.cellOf_inj) (Pipeline.launchToks cfgs GenP.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (GenP.W0 m ρ c) ∗ GenP.R c)) (Tₙ := GenP.Tₙ m ρ)
    (hch := ⟨fun _ => .rfl, fun _ => .rfl, fun _ => .rfl, fun _ => .rfl, fun _ => .rfl, fun _ => .rfl, fun _ => .rfl, fun c => by
      dsimp only [Pipeline.Seg.post, GenP.hseg, Pipeline.HostSeg.ofOps]
      iintro ⟨Hh, Hp, HO⟩
      isplitl [Hh Hp]
      · isplitl [Hh]; · iexact Hh
        iexact Hp
      iexact HO⟩)
    (hinit := by
      refine Pipeline.initEach GenP.L GenP.lv fun c => ?_
      rw [show unscopedBufs c (fun b => m ((c : Thread nD τ).loc b)) = StableHlo.held (c : Thread nD τ) (Pipeline.ucRefs τ sig) (GenP.W0 m ρ c)
        from Pipeline.unscopedBufs_held c (GenP.W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = GenP.W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (GenP.W7 m ρ c) s')
      isplitl [Hh] <;> iassumption)
    (hQ := fun s h c =>
      ⟨h c _ (GenP.mem_uc main_v49 (by decide)),
       (h c _ (GenP.mem_uc main_arg0 (by decide))).trans (GenP.W7_main_arg0 m ρ c),
       (h c _ (GenP.mem_uc main_arg1 (by decide))).trans (GenP.W7_main_arg1 m ρ c),
       (h c _ (GenP.mem_uc main_arg2 (by decide))).trans (GenP.W7_main_arg2 m ρ c),
       (h c _ (GenP.mem_uc main_arg3 (by decide))).trans (GenP.W7_main_arg3 m ρ c),
       (h c _ (GenP.mem_uc main_arg4 (by decide))).trans (GenP.W7_main_arg4 m ρ c),
       (h c _ (GenP.mem_uc main_arg5 (by decide))).trans (GenP.W7_main_arg5 m ρ c),
       (h c _ (GenP.mem_uc main_arg6 (by decide))).trans (GenP.W7_main_arg6 m ρ c),
       (h c _ (GenP.mem_uc main_arg7 (by decide))).trans (GenP.W7_main_arg7 m ρ c),
       (h c _ (GenP.mem_uc main_arg8 (by decide))).trans (GenP.W7_main_arg8 m ρ c),
       (h c _ (GenP.mem_uc main_arg9 (by decide))).trans (GenP.W7_main_arg9 m ρ c),
       (h c _ (GenP.mem_uc main_arg10 (by decide))).trans (GenP.W7_main_arg10 m ρ c)⟩)

end Run

section Value

/-! ## The three dense stages' whole-array facts, as hypotheses

Whatever the buffers hold when a stage is entered (`V`), its output array ends as the layer of its six operand arrays
as entered. -/

/-- The first stage leaves `layerRelu` of its operands in its output array. -/
abbrev Stage0 : Prop := ∀ (V : (c : Dev nD) → (b : Ref sig .tc) → Buf (Elt Ideal) ((c : Thread nD τ).loc b)) (c : Dev nD),
  (GenP.dat0 (F := Ideal) V c).arrAt 6 cfg0.N
    = Cert.Sage.layerRelu (V c main_v20) (V c main_v9) (V c main_v8) (V c main_arg2) (V c main_arg3) (V c main_v21)
/-- The second stage leaves `layerRelu` of its operands in its output array. -/
abbrev Stage1 : Prop := ∀ (V : (c : Dev nD) → (b : Ref sig .tc) → Buf (Elt Ideal) ((c : Thread nD τ).loc b)) (c : Dev nD),
  (GenP.dat1 (F := Ideal) V c).arrAt 6 cfg1.N
    = Cert.Sage.layerRelu (V c main_v33) (V c main_v22) (V c main_v8) (V c main_arg5) (V c main_arg6) (V c main_v34)
/-- The third stage leaves `layer` of its operands in its output array. -/
abbrev Stage2 : Prop := ∀ (V : (c : Dev nD) → (b : Ref sig .tc) → Buf (Elt Ideal) ((c : Thread nD τ).loc b)) (c : Dev nD),
  (GenP.dat2 (F := Ideal) V c).arrAt 6 cfg2.N
    = Cert.Sage.layer (V c main_v46) (V c main_v35) (V c main_v8) (V c main_arg8) (V c main_arg9) (V c main_v47)

/-- The neighbour sums of 64 features as a stretch computes them from the three buffers it reads — the target nodes, the
    node features, the source nodes (a negative source index wrapped once by the number of nodes). -/
def gatherSum64 (t : IVec S1600000 32) (h : FVec Ideal S100000x64 .bf16) (s : IVec S1600000 32) : FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 t)
    (extf .f32 (Host.gather gather_S100000x64_S1600000x1_S1600000x64_1_0_n_n_0_1_164 h
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s))) bitsLt_bf16_f32)

/-- At the edge list's own target and source rows it is the network's `aggregate64`. -/
theorem gatherSum64_eq (h : FVec Ideal S100000x64 .bf16) (ei : IVec S2x1600000 32) :
    gatherSum64 (Net.target ei) h (Net.source ei) = Net.aggregate64 h ei := rfl

variable (m : (ℓ : Loc nD τ sig) → Buf (Elt Ideal) ℓ) (ρ : Dev nD → PrngReg) (c : Dev nD)

/-- A stretch of whole-array operations keeps a buffer that none of them writes: which buffer each operation writes is
    read off the printed list, and two buffers are told apart as references. -/
local macro "stretch_keeps" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

-- The contents at a dense stage's exit are compared only as named terms: telling two of their buffers apart never needs
-- the fold behind them opened.
attribute [local irreducible] GenP.W2 GenP.W4 GenP.W6

/-! ## Boundary 1: after the first stretch (the edge list split, the edge count, the first neighbour sums) -/

set_option maxHeartbeats 400000 in
theorem W1_v1 :
    GenP.W1 m ρ c (Proc.devRef .tc main_v1) = Net.source (m ((c.tc : Thread nD τ).loc main_arg1)) := by
  show StableHlo.after GenP.hostOps0 (GenP.W0 m ρ c) (Proc.devRef .tc main_v1) = _
  after_results_simp
  rfl
set_option maxHeartbeats 400000 in
theorem W1_v3 :
    GenP.W1 m ρ c (Proc.devRef .tc main_v3) = Net.target (m ((c.tc : Thread nD τ).loc main_arg1)) := by
  show StableHlo.after GenP.hostOps0 (GenP.W0 m ρ c) (Proc.devRef .tc main_v3) = _
  after_results_simp
  rfl
set_option maxHeartbeats 400000 in
theorem W1_v8 :
    GenP.W1 m ρ c (Proc.devRef .tc main_v8) = Net.count (m ((c.tc : Thread nD τ).loc main_arg1)) := by
  show StableHlo.after GenP.hostOps0 (GenP.W0 m ρ c) (Proc.devRef .tc main_v8) = _
  after_results_simp
  rfl
set_option maxHeartbeats 400000 in
theorem W1_v9 :
    GenP.W1 m ρ c (Proc.devRef .tc main_v9) = Net.features0 (m ((c.tc : Thread nD τ).loc main_arg0)) := by
  show StableHlo.after GenP.hostOps0 (GenP.W0 m ρ c) (Proc.devRef .tc main_v9) = _
  after_results_simp
  rfl
set_option maxHeartbeats 400000 in
theorem W1_v20 :
    GenP.W1 m ρ c (Proc.devRef .tc main_v20) = Net.aggregate32 (Net.features0 (m ((c.tc : Thread nD τ).loc main_arg0))) (m ((c.tc : Thread nD τ).loc main_arg1)) := by
  show StableHlo.after GenP.hostOps0 (GenP.W0 m ρ c) (Proc.devRef .tc main_v20) = _
  after_results_simp
  rfl
set_option maxHeartbeats 400000 in
theorem W1_v21 :
    GenP.W1 m ρ c (Proc.devRef .tc main_v21) = shapeCast S1x64 (m ((c.tc : Thread nD τ).loc main_arg4)) shapeCasts_S64_S1x64 := by
  show StableHlo.after GenP.hostOps0 (GenP.W0 m ρ c) (Proc.devRef .tc main_v21) = _
  after_results_simp
  rfl
theorem W1_arg2 :
    GenP.W1 m ρ c (Proc.devRef .tc main_arg2) = (m ((c.tc : Thread nD τ).loc main_arg2)) := by
  show StableHlo.after GenP.hostOps0 (GenP.W0 m ρ c) (Proc.devRef .tc main_arg2) = GenP.W0 m ρ c (Proc.devRef .tc main_arg2)
  stretch_keeps GenP.hostOps0
theorem W1_arg3 :
    GenP.W1 m ρ c (Proc.devRef .tc main_arg3) = (m ((c.tc : Thread nD τ).loc main_arg3)) := by
  show StableHlo.after GenP.hostOps0 (GenP.W0 m ρ c) (Proc.devRef .tc main_arg3) = GenP.W0 m ρ c (Proc.devRef .tc main_arg3)
  stretch_keeps GenP.hostOps0
theorem W1_arg5 :
    GenP.W1 m ρ c (Proc.devRef .tc main_arg5) = (m ((c.tc : Thread nD τ).loc main_arg5)) := by
  show StableHlo.after GenP.hostOps0 (GenP.W0 m ρ c) (Proc.devRef .tc main_arg5) = GenP.W0 m ρ c (Proc.devRef .tc main_arg5)
  stretch_keeps GenP.hostOps0
theorem W1_arg6 :
    GenP.W1 m ρ c (Proc.devRef .tc main_arg6) = (m ((c.tc : Thread nD τ).loc main_arg6)) := by
  show StableHlo.after GenP.hostOps0 (GenP.W0 m ρ c) (Proc.devRef .tc main_arg6) = GenP.W0 m ρ c (Proc.devRef .tc main_arg6)
  stretch_keeps GenP.hostOps0
theorem W1_arg7 :
    GenP.W1 m ρ c (Proc.devRef .tc main_arg7) = (m ((c.tc : Thread nD τ).loc main_arg7)) := by
  show StableHlo.after GenP.hostOps0 (GenP.W0 m ρ c) (Proc.devRef .tc main_arg7) = GenP.W0 m ρ c (Proc.devRef .tc main_arg7)
  stretch_keeps GenP.hostOps0
theorem W1_arg8 :
    GenP.W1 m ρ c (Proc.devRef .tc main_arg8) = (m ((c.tc : Thread nD τ).loc main_arg8)) := by
  show StableHlo.after GenP.hostOps0 (GenP.W0 m ρ c) (Proc.devRef .tc main_arg8) = GenP.W0 m ρ c (Proc.devRef .tc main_arg8)
  stretch_keeps GenP.hostOps0
theorem W1_arg9 :
    GenP.W1 m ρ c (Proc.devRef .tc main_arg9) = (m ((c.tc : Thread nD τ).loc main_arg9)) := by
  show StableHlo.after GenP.hostOps0 (GenP.W0 m ρ c) (Proc.devRef .tc main_arg9) = GenP.W0 m ρ c (Proc.devRef .tc main_arg9)
  stretch_keeps GenP.hostOps0
theorem W1_arg10 :
    GenP.W1 m ρ c (Proc.devRef .tc main_arg10) = (m ((c.tc : Thread nD τ).loc main_arg10)) := by
  show StableHlo.after GenP.hostOps0 (GenP.W0 m ρ c) (Proc.devRef .tc main_arg10) = GenP.W0 m ρ c (Proc.devRef .tc main_arg10)
  stretch_keeps GenP.hostOps0

/-! ## Boundary 2: after the first dense stage -/

theorem W2_v22 (hf0 : Stage0) :
    GenP.W2 m ρ c (Proc.devRef .tc main_v22) = Net.hidden1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (GenP.W2_arr m ρ c 6).trans ((hf0 (GenP.V1 m ρ) c).trans ?_)
  show Cert.Sage.layerRelu (GenP.W1 m ρ c (Proc.devRef .tc main_v20)) (GenP.W1 m ρ c (Proc.devRef .tc main_v9)) (GenP.W1 m ρ c (Proc.devRef .tc main_v8))
      (GenP.W1 m ρ c (Proc.devRef .tc main_arg2)) (GenP.W1 m ρ c (Proc.devRef .tc main_arg3)) (GenP.W1 m ρ c (Proc.devRef .tc main_v21)) = _
  rw [W1_v20, W1_v9, W1_v8, W1_arg2, W1_arg3, W1_v21]
  rfl
theorem W2_v1 :
    GenP.W2 m ρ c (Proc.devRef .tc main_v1) = Net.source (m ((c.tc : Thread nD τ).loc main_arg1)) :=
  (GenP.W2_of_ne m ρ c main_v1 (by decide)).trans (W1_v1 m ρ c)
theorem W2_v3 :
    GenP.W2 m ρ c (Proc.devRef .tc main_v3) = Net.target (m ((c.tc : Thread nD τ).loc main_arg1)) :=
  (GenP.W2_of_ne m ρ c main_v3 (by decide)).trans (W1_v3 m ρ c)
/-- The count column is an input array of the stage (window 2): read, never written. -/
theorem W2_v8 :
    GenP.W2 m ρ c (Proc.devRef .tc main_v8) = Net.count (m ((c.tc : Thread nD τ).loc main_arg1)) :=
  ((GenP.W2_arr m ρ c 2).trans (((GenP.dat0 (GenP.V1 m ρ) c).arrAt_in 2 rfl _).trans (GenP.A_eq0 (GenP.V1 m ρ) c 2))).trans (W1_v8 m ρ c)
theorem W2_arg5 :
    GenP.W2 m ρ c (Proc.devRef .tc main_arg5) = (m ((c.tc : Thread nD τ).loc main_arg5)) :=
  (GenP.W2_of_ne m ρ c main_arg5 (by decide)).trans (W1_arg5 m ρ c)
theorem W2_arg6 :
    GenP.W2 m ρ c (Proc.devRef .tc main_arg6) = (m ((c.tc : Thread nD τ).loc main_arg6)) :=
  (GenP.W2_of_ne m ρ c main_arg6 (by decide)).trans (W1_arg6 m ρ c)
theorem W2_arg7 :
    GenP.W2 m ρ c (Proc.devRef .tc main_arg7) = (m ((c.tc : Thread nD τ).loc main_arg7)) :=
  (GenP.W2_of_ne m ρ c main_arg7 (by decide)).trans (W1_arg7 m ρ c)
theorem W2_arg8 :
    GenP.W2 m ρ c (Proc.devRef .tc main_arg8) = (m ((c.tc : Thread nD τ).loc main_arg8)) :=
  (GenP.W2_of_ne m ρ c main_arg8 (by decide)).trans (W1_arg8 m ρ c)
theorem W2_arg9 :
    GenP.W2 m ρ c (Proc.devRef .tc main_arg9) = (m ((c.tc : Thread nD τ).loc main_arg9)) :=
  (GenP.W2_of_ne m ρ c main_arg9 (by decide)).trans (W1_arg9 m ρ c)
theorem W2_arg10 :
    GenP.W2 m ρ c (Proc.devRef .tc main_arg10) = (m ((c.tc : Thread nD τ).loc main_arg10)) :=
  (GenP.W2_of_ne m ρ c main_arg10 (by decide)).trans (W1_arg10 m ρ c)

/-! ## Boundary 3: after the second stretch (the second neighbour sums) -/

set_option maxHeartbeats 400000 in
theorem W3_v33 (hf0 : Stage0) :
    GenP.W3 m ρ c (Proc.devRef .tc main_v33) = Net.aggregate64 (Net.hidden1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) := by
  show StableHlo.after GenP.hostOps1 (GenP.W2 m ρ c) (Proc.devRef .tc main_v33) = _
  after_results
  show gatherSum64 (GenP.W2 m ρ c (Proc.devRef .tc main_v3)) (GenP.W2 m ρ c (Proc.devRef .tc main_v22)) (GenP.W2 m ρ c (Proc.devRef .tc main_v1)) = _
  exact (congr (congr (congrArg gatherSum64 (W2_v3 m ρ c)) (W2_v22 m ρ c hf0)) (W2_v1 m ρ c)).trans (gatherSum64_eq _ _)
theorem W3_v34 :
    GenP.W3 m ρ c (Proc.devRef .tc main_v34) = shapeCast S1x64 (m ((c.tc : Thread nD τ).loc main_arg7)) shapeCasts_S64_S1x64 := by
  show StableHlo.after GenP.hostOps1 (GenP.W2 m ρ c) (Proc.devRef .tc main_v34) = _
  after_results
  rw [W2_arg7]
  rfl
theorem W3_v22 (hf0 : Stage0) :
    GenP.W3 m ρ c (Proc.devRef .tc main_v22) = Net.hidden1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  Eq.trans (by
    show StableHlo.after GenP.hostOps1 (GenP.W2 m ρ c) (Proc.devRef .tc main_v22) = GenP.W2 m ρ c (Proc.devRef .tc main_v22)
    stretch_keeps GenP.hostOps1) (W2_v22 m ρ c hf0)
theorem W3_v1 :
    GenP.W3 m ρ c (Proc.devRef .tc main_v1) = Net.source (m ((c.tc : Thread nD τ).loc main_arg1)) :=
  Eq.trans (by
    show StableHlo.after GenP.hostOps1 (GenP.W2 m ρ c) (Proc.devRef .tc main_v1) = GenP.W2 m ρ c (Proc.devRef .tc main_v1)
    stretch_keeps GenP.hostOps1) (W2_v1 m ρ c)
theorem W3_v3 :
    GenP.W3 m ρ c (Proc.devRef .tc main_v3) = Net.target (m ((c.tc : Thread nD τ).loc main_arg1)) :=
  Eq.trans (by
    show StableHlo.after GenP.hostOps1 (GenP.W2 m ρ c) (Proc.devRef .tc main_v3) = GenP.W2 m ρ c (Proc.devRef .tc main_v3)
    stretch_keeps GenP.hostOps1) (W2_v3 m ρ c)
theorem W3_v8 :
    GenP.W3 m ρ c (Proc.devRef .tc main_v8) = Net.count (m ((c.tc : Thread nD τ).loc main_arg1)) :=
  Eq.trans (by
    show StableHlo.after GenP.hostOps1 (GenP.W2 m ρ c) (Proc.devRef .tc main_v8) = GenP.W2 m ρ c (Proc.devRef .tc main_v8)
    stretch_keeps GenP.hostOps1) (W2_v8 m ρ c)
theorem W3_arg5 :
    GenP.W3 m ρ c (Proc.devRef .tc main_arg5) = (m ((c.tc : Thread nD τ).loc main_arg5)) :=
  Eq.trans (by
    show StableHlo.after GenP.hostOps1 (GenP.W2 m ρ c) (Proc.devRef .tc main_arg5) = GenP.W2 m ρ c (Proc.devRef .tc main_arg5)
    stretch_keeps GenP.hostOps1) (W2_arg5 m ρ c)
theorem W3_arg6 :
    GenP.W3 m ρ c (Proc.devRef .tc main_arg6) = (m ((c.tc : Thread nD τ).loc main_arg6)) :=
  Eq.trans (by
    show StableHlo.after GenP.hostOps1 (GenP.W2 m ρ c) (Proc.devRef .tc main_arg6) = GenP.W2 m ρ c (Proc.devRef .tc main_arg6)
    stretch_keeps GenP.hostOps1) (W2_arg6 m ρ c)
theorem W3_arg8 :
    GenP.W3 m ρ c (Proc.devRef .tc main_arg8) = (m ((c.tc : Thread nD τ).loc main_arg8)) :=
  Eq.trans (by
    show StableHlo.after GenP.hostOps1 (GenP.W2 m ρ c) (Proc.devRef .tc main_arg8) = GenP.W2 m ρ c (Proc.devRef .tc main_arg8)
    stretch_keeps GenP.hostOps1) (W2_arg8 m ρ c)
theorem W3_arg9 :
    GenP.W3 m ρ c (Proc.devRef .tc main_arg9) = (m ((c.tc : Thread nD τ).loc main_arg9)) :=
  Eq.trans (by
    show StableHlo.after GenP.hostOps1 (GenP.W2 m ρ c) (Proc.devRef .tc main_arg9) = GenP.W2 m ρ c (Proc.devRef .tc main_arg9)
    stretch_keeps GenP.hostOps1) (W2_arg9 m ρ c)
theorem W3_arg10 :
    GenP.W3 m ρ c (Proc.devRef .tc main_arg10) = (m ((c.tc : Thread nD τ).loc main_arg10)) :=
  Eq.trans (by
    show StableHlo.after GenP.hostOps1 (GenP.W2 m ρ c) (Proc.devRef .tc main_arg10) = GenP.W2 m ρ c (Proc.devRef .tc main_arg10)
    stretch_keeps GenP.hostOps1) (W2_arg10 m ρ c)

/-! ## Boundary 4: after the second dense stage -/

theorem W4_v35 (hf0 : Stage0) (hf1 : Stage1) :
    GenP.W4 m ρ c (Proc.devRef .tc main_v35) = Net.hidden2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (GenP.W4_arr m ρ c 6).trans ((hf1 (GenP.V3 m ρ) c).trans ?_)
  show Cert.Sage.layerRelu (GenP.W3 m ρ c (Proc.devRef .tc main_v33)) (GenP.W3 m ρ c (Proc.devRef .tc main_v22)) (GenP.W3 m ρ c (Proc.devRef .tc main_v8))
      (GenP.W3 m ρ c (Proc.devRef .tc main_arg5)) (GenP.W3 m ρ c (Proc.devRef .tc main_arg6)) (GenP.W3 m ρ c (Proc.devRef .tc main_v34)) = _
  rw [W3_v33 m ρ c hf0, W3_v22 m ρ c hf0, W3_v8, W3_arg5, W3_arg6, W3_v34]
  rfl
theorem W4_v1 :
    GenP.W4 m ρ c (Proc.devRef .tc main_v1) = Net.source (m ((c.tc : Thread nD τ).loc main_arg1)) :=
  (GenP.W4_of_ne m ρ c main_v1 (by decide)).trans (W3_v1 m ρ c)
theorem W4_v3 :
    GenP.W4 m ρ c (Proc.devRef .tc main_v3) = Net.target (m ((c.tc : Thread nD τ).loc main_arg1)) :=
  (GenP.W4_of_ne m ρ c main_v3 (by decide)).trans (W3_v3 m ρ c)
/-- The count column is again an input array (window 2). -/
theorem W4_v8 :
    GenP.W4 m ρ c (Proc.devRef .tc main_v8) = Net.count (m ((c.tc : Thread nD τ).loc main_arg1)) :=
  ((GenP.W4_arr m ρ c 2).trans (((GenP.dat1 (GenP.V3 m ρ) c).arrAt_in 2 rfl _).trans (GenP.A_eq1 (GenP.V3 m ρ) c 2))).trans (W3_v8 m ρ c)
theorem W4_arg8 :
    GenP.W4 m ρ c (Proc.devRef .tc main_arg8) = (m ((c.tc : Thread nD τ).loc main_arg8)) :=
  (GenP.W4_of_ne m ρ c main_arg8 (by decide)).trans (W3_arg8 m ρ c)
theorem W4_arg9 :
    GenP.W4 m ρ c (Proc.devRef .tc main_arg9) = (m ((c.tc : Thread nD τ).loc main_arg9)) :=
  (GenP.W4_of_ne m ρ c main_arg9 (by decide)).trans (W3_arg9 m ρ c)
theorem W4_arg10 :
    GenP.W4 m ρ c (Proc.devRef .tc main_arg10) = (m ((c.tc : Thread nD τ).loc main_arg10)) :=
  (GenP.W4_of_ne m ρ c main_arg10 (by decide)).trans (W3_arg10 m ρ c)

/-! ## Boundary 5: after the third stretch (the third neighbour sums) -/

set_option maxHeartbeats 400000 in
theorem W5_v46 (hf0 : Stage0) (hf1 : Stage1) :
    GenP.W5 m ρ c (Proc.devRef .tc main_v46) = Net.aggregate64 (Net.hidden2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg1)) := by
  show StableHlo.after GenP.hostOps2 (GenP.W4 m ρ c) (Proc.devRef .tc main_v46) = _
  after_results
  show gatherSum64 (GenP.W4 m ρ c (Proc.devRef .tc main_v3)) (GenP.W4 m ρ c (Proc.devRef .tc main_v35)) (GenP.W4 m ρ c (Proc.devRef .tc main_v1)) = _
  exact (congr (congr (congrArg gatherSum64 (W4_v3 m ρ c)) (W4_v35 m ρ c hf0 hf1)) (W4_v1 m ρ c)).trans (gatherSum64_eq _ _)
theorem W5_v47 :
    GenP.W5 m ρ c (Proc.devRef .tc main_v47) = shapeCast S1x1 (m ((c.tc : Thread nD τ).loc main_arg10)) shapeCasts_S1_S1x1 := by
  show StableHlo.after GenP.hostOps2 (GenP.W4 m ρ c) (Proc.devRef .tc main_v47) = _
  after_results
  rw [W4_arg10]
  rfl
theorem W5_v35 (hf0 : Stage0) (hf1 : Stage1) :
    GenP.W5 m ρ c (Proc.devRef .tc main_v35) = Net.hidden2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  Eq.trans (by
    show StableHlo.after GenP.hostOps2 (GenP.W4 m ρ c) (Proc.devRef .tc main_v35) = GenP.W4 m ρ c (Proc.devRef .tc main_v35)
    stretch_keeps GenP.hostOps2) (W4_v35 m ρ c hf0 hf1)
theorem W5_v8 :
    GenP.W5 m ρ c (Proc.devRef .tc main_v8) = Net.count (m ((c.tc : Thread nD τ).loc main_arg1)) :=
  Eq.trans (by
    show StableHlo.after GenP.hostOps2 (GenP.W4 m ρ c) (Proc.devRef .tc main_v8) = GenP.W4 m ρ c (Proc.devRef .tc main_v8)
    stretch_keeps GenP.hostOps2) (W4_v8 m ρ c)
theorem W5_arg8 :
    GenP.W5 m ρ c (Proc.devRef .tc main_arg8) = (m ((c.tc : Thread nD τ).loc main_arg8)) :=
  Eq.trans (by
    show StableHlo.after GenP.hostOps2 (GenP.W4 m ρ c) (Proc.devRef .tc main_arg8) = GenP.W4 m ρ c (Proc.devRef .tc main_arg8)
    stretch_keeps GenP.hostOps2) (W4_arg8 m ρ c)
theorem W5_arg9 :
    GenP.W5 m ρ c (Proc.devRef .tc main_arg9) = (m ((c.tc : Thread nD τ).loc main_arg9)) :=
  Eq.trans (by
    show StableHlo.after GenP.hostOps2 (GenP.W4 m ρ c) (Proc.devRef .tc main_arg9) = GenP.W4 m ρ c (Proc.devRef .tc main_arg9)
    stretch_keeps GenP.hostOps2) (W4_arg9 m ρ c)

/-! ## Boundaries 6 and 7: the third dense stage, then the score column laid out as a vector -/

theorem W6_v48 (hf0 : Stage0) (hf1 : Stage1) (hf2 : Stage2) :
    GenP.W6 m ρ c (Proc.devRef .tc main_v48) = Net.scoreColumn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (GenP.W6_arr m ρ c 6).trans ((hf2 (GenP.V5 m ρ) c).trans ?_)
  show Cert.Sage.layer (GenP.W5 m ρ c (Proc.devRef .tc main_v46)) (GenP.W5 m ρ c (Proc.devRef .tc main_v35)) (GenP.W5 m ρ c (Proc.devRef .tc main_v8))
      (GenP.W5 m ρ c (Proc.devRef .tc main_arg8)) (GenP.W5 m ρ c (Proc.devRef .tc main_arg9)) (GenP.W5 m ρ c (Proc.devRef .tc main_v47)) = _
  rw [W5_v46 m ρ c hf0 hf1, W5_v35 m ρ c hf0 hf1, W5_v8, W5_arg8, W5_arg9, W5_v47]
  rfl
theorem W7_v49 (hf0 : Stage0) (hf1 : Stage1) (hf2 : Stage2) :
    GenP.W7 m ρ c (Proc.devRef .tc main_v49) = Net.score (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  show StableHlo.after GenP.hostOps3 (GenP.W6 m ρ c) (Proc.devRef .tc main_v49) = _
  after_results
  rw [W6_v48 m ρ c hf0 hf1 hf2]
  rfl

/-- The result buffer at the last boundary is the network of the argument arrays, given the three stages' whole-array
    facts. -/
theorem result_eq
    (hf0 : ∀ (V : (c : Dev nD) → (b : Ref sig .tc) → Buf (Elt Ideal) ((c : Thread nD τ).loc b)) (c : Dev nD),
      (GenP.dat0 (F := Ideal) V c).arrAt 6 cfg0.N
        = Cert.Sage.layerRelu (V c main_v20) (V c main_v9) (V c main_v8) (V c main_arg2) (V c main_arg3) (V c main_v21))
    (hf1 : ∀ (V : (c : Dev nD) → (b : Ref sig .tc) → Buf (Elt Ideal) ((c : Thread nD τ).loc b)) (c : Dev nD),
      (GenP.dat1 (F := Ideal) V c).arrAt 6 cfg1.N
        = Cert.Sage.layerRelu (V c main_v33) (V c main_v22) (V c main_v8) (V c main_arg5) (V c main_arg6) (V c main_v34))
    (hf2 : ∀ (V : (c : Dev nD) → (b : Ref sig .tc) → Buf (Elt Ideal) ((c : Thread nD τ).loc b)) (c : Dev nD),
      (GenP.dat2 (F := Ideal) V c).arrAt 6 cfg2.N
        = Cert.Sage.layer (V c main_v46) (V c main_v35) (V c main_v8) (V c main_arg8) (V c main_arg9) (V c main_v47))
    (m : (ℓ : Loc nD τ sig) → Buf (Elt Ideal) ℓ) (ρ : Dev nD → PrngReg) (c : Dev nD) :
    GenP.W7 (F := Ideal) m ρ c (Proc.devRef .tc main_v49)
      = Net.score (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) :=
  W7_v49 m ρ c hf0 hf1 hf2

end Value

end Cert.KernelIdeal.Hand

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.LibColumns.lean ====
/-
  Two layout operations on a matrix with a short second axis, read at an index.

  A kernel that needs one column of a packed `[a, n]` array slices it out as an `[a, 1]` column and broadcasts that
  column along the rows of an `[a, b]` block. Read at row `p` and column `c`, the result is the packed array at
  `(p, col)`, whatever `c` is.
-/
import Idealize.ShloMosaic.Lib.ValueIdx
import Idealize.ShloMosaic.Lib.Pipeline.Value

noncomputable section

namespace Idealize.ShloMosaic.ValueIdx

open Idealize.ShloMosaic

variable {α : Type}

/-- A unit-stride slice taking column `col` of an `[a, n]` array as an `[a, 1]` column: at row `p` it reads `(p, col)`. -/
theorem extractStridedSlice_column_apply {a n : ℕ} (off : Fin 2 → ℕ) (col : Fin n) (h0 : off 0 = 0) (h1 : off 1 = col.val)
    (v : (⟨2, ![a, n]⟩ : Shape).Idx → α) (h : (⟨2, ![a, n]⟩ : Shape).Slices off ⟨2, ![a, 1]⟩) (p : Fin a) (z : Fin 1) :
    extractStridedSlice ⟨2, ![a, 1]⟩ off v h (ix2 p z) = v (ix2 p col) := by
  refine extractStridedSlice_apply off v h (ix2 p z) (ix2 p col) fun ax => ?_
  match ax with
  | ⟨0, _⟩ => show p.val = off 0 + p.val; omega
  | ⟨1, _⟩ => show col.val = off 1 + z.val; have := z.isLt; omega

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.LibRegionBlockSpread.lean ====
/-
  Keep-dimension columns and rows spread by the host over a matrix, read at an index.

  After a reduction along the rows of an `[a, b]` array the host keeps the result as an `[a, 1]` column and spreads it
  back over the `b` columns, both with `broadcast_in_dim`; a bias is an `[1, b]` row spread over the `a` rows.  Read at
  `(p, q)`, each of these is the value of the row `p`, or of the column `q`, alone:

    * an `[a]` array spread in dimension 0 to an `[a, 1]` column reads at `(p, z)` the array at `p`;
    * an `[a, 1]` column spread in dimensions (0, 1) over `[a, b]` reads at `(p, q)` the column at `(p, 0)`;
    * a `[1, b]` row spread in dimensions (0, 1) over `[a, b]` reads at `(p, q)` the row at `(0, q)`.

  The square root, which a kernel and the host apply entry by entry, is read at an index by definition.
-/
import Idealize.ShloMosaic.PureOps.Ideal
import Idealize.ShloMosaic.Lib.ValueIdx
import Idealize.ShloMosaic.Lib.Pipeline.Value

noncomputable section

namespace Idealize.ShloMosaic.KeepDims

open Idealize.ShloMosaic Idealize.ShloMosaic.ValueIdx

/-! ## The square root at an index -/

section Pointwise
variable {s : Shape} {φ : FTy}

/-- A kernel's square root at an index is the square root of the entry. -/
theorem sqrt_apply (a : FVec Ideal s φ) (i : s.Idx) : sqrt a i = Ideal.sqrt (a i) := rfl
/-- The host's square root at an index is the same function of the entry. -/
theorem hostSqrt_apply (a : FVec Ideal s φ) (i : s.Idx) : Host.sqrt a i = Ideal.sqrt (a i) := rfl

end Pointwise

/-! ## Columns and rows spread over a matrix -/

section Layout
variable {α : Type}

/-- An `[a]` array spread in dimension 0 to an `[a, 1]` column reads, at `(p, z)`, the array at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h x (ix2 p z) = x (ix1 p) :=
  broadcastInDim_apply ![0] h x (ix2 p z) (ix1 p) fun ax => by
    match ax with
    | ⟨0, _⟩ =>
      show p.val = if a = 1 then 0 else p.val
      split
      · have := p.isLt; omega
      · rfl

/-- An `[a, 1]` column spread in dimensions (0, 1) over `[a, b]` reads, at `(p, q)`, the column at `(p, 0)`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) :=
  broadcastInDim_apply ![0, 1] h x (ix2 p q) (ix2 p (0 : Fin 1)) fun ax => by
    match ax with
    | ⟨0, _⟩ =>
      show p.val = if a = 1 then 0 else p.val
      split
      · have := p.isLt; omega
      · rfl
    | ⟨1, _⟩ => rfl

/-- A `[1, b]` row spread in dimensions (0, 1) over `[a, b]` reads, at `(p, q)`, the row at `(0, q)`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) :=
  broadcastInDim_apply ![0, 1] h x (ix2 p q) (ix2 (0 : Fin 1) q) fun ax => by
    match ax with
    | ⟨0, _⟩ => rfl
    | ⟨1, _⟩ =>
      show q.val = if b = 1 then 0 else q.val
      split
      · have := q.isLt; omega
      · rfl

end Layout

end Idealize.ShloMosaic.KeepDims

end
-- ==== Proof.LibDense.lean ====
/-
  Dense layers read at an index, over the extended reals.

  A bias vector `b : [N]` enters a dense layer as a row broadcast over `M` rows: in a kernel as a shape cast to
  `[1, N]` followed by a vector broadcast to `[M, N]`, on the host as two `broadcast_in_dim`s.  Either way the entry
  at `(p, q)` is `b q`.  With the plain matrix product read at an index this gives the three layers below as plain
  formulas, whatever the tiling of the rows:

    * `linRelu x w b (p, q) = max (∑ k, x (p, k) * w (k, q) + b q) 0`
    * `sageRelu agg h wl bl wr (p, q) = max ((∑ k, agg (p, k) * wl (k, q) + bl q) + ∑ k, h (p, k) * wr (k, q)) 0`
    * `mlpPre cat w1 b1 w2 b2 (p, u) = ∑ j, max (∑ k, cat (p, k) * w1 (k, j) + b1 j) 0 * w2 (j, u) + b2 u`
    * `mlpScore … = tanh (mlpPre …)`, entry by entry

  (`0` is kept as the float word `0x00000000` read at the ideal instance; it is the same word on every side and is
  never evaluated.)
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Idealize.ShloMosaic.DenseLayer

open Idealize.ShloMosaic Idealize.ShloMosaic.ValueIdx

variable {α : Type}

/-- A kernel's bias row: `b : [N]` cast to `[1, N]` and broadcast to `[M, N]` reads `b q` at `(p, q)`. -/
theorem castRow_apply {M N : ℕ} (b : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (p : Fin M) (q : Fin N) :
    broadcastTo ⟨2, ![M, N]⟩ (shapeCast ⟨2, ![1, N]⟩ b h1) h2 (ix2 p q) = b (ix1 q) := by
  rw [broadcastTo_1b_ab_apply, shapeCast_a_1a_apply]

/-- The host's bias row: `b : [N]` broadcast to `[1, N]` along axis 1, then to `[M, N]`, reads `b q` at `(p, q)`. -/
theorem inDimRow_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1])
    (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  exact broadcastInDim_apply ![1] h1 b (ix2 (0 : Fin 1) q) (ix1 q) (fun a => by
    match a with
    | ⟨0, _⟩ =>
      show q.val = if N = 1 then 0 else q.val
      split
      · have := q.isLt; omega
      · rfl)

/-- The float word zero, read at the ideal instance. -/
abbrev zeroWord : EReal := Ideal.ofBits .f32 0x00000000#32

/-- `relu (x · w + b)`, entry by entry. -/
def linRelu {M K N : ℕ} (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal := fun i =>
  max (∑ k : Fin K, x (ix2 (i 0) k) * w (ix2 k (i 1)) + b (ix1 (i 1))) zeroWord

/-- `relu ((agg · wl + bl) + h · wr)`, entry by entry. -/
def sageRelu {M K N : ℕ} (agg h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) :
    (⟨2, ![M, N]⟩ : Shape).Idx → EReal := fun i =>
  max ((∑ k : Fin K, agg (ix2 (i 0) k) * wl (ix2 k (i 1)) + bl (ix1 (i 1)))
    + ∑ k : Fin K, h (ix2 (i 0) k) * wr (ix2 k (i 1))) zeroWord

/-- `relu (cat · w1 + b1) · w2 + b2`, entry by entry: the score before its `tanh`. -/
def mlpPre {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal := fun i =>
  ∑ j : Fin H, linRelu cat w1 b1 (ix2 (i 0) j) * w2 (ix2 j (i 1)) + b2 (ix1 (i 1))

/-- The score: `tanh` of `mlpPre`, entry by entry. -/
def mlpScore {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal := fun i =>
  Ideal.tanh (mlpPre cat w1 b1 w2 b2 i)

theorem linRelu_apply {M K N : ℕ} (x : (⟨2, ![M, K]⟩ : Shape).Idx → EReal) (w : (⟨2, ![K, N]⟩ : Shape).Idx → EReal)
    (b : (⟨1, ![N]⟩ : Shape).Idx → EReal) (p : Fin M) (q : Fin N) :
    linRelu x w b (ix2 p q) = max (∑ k : Fin K, x (ix2 p k) * w (ix2 k q) + b (ix1 q)) zeroWord := rfl

theorem sageRelu_apply {M K N : ℕ} (agg h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) (p : Fin M) (q : Fin N) :
    sageRelu agg h wl bl wr (ix2 p q)
      = max ((∑ k : Fin K, agg (ix2 p k) * wl (ix2 k q) + bl (ix1 q)) + ∑ k : Fin K, h (ix2 p k) * wr (ix2 k q)) zeroWord := rfl

theorem mlpPre_apply {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) (p : Fin M) (u : Fin N) :
    mlpPre cat w1 b1 w2 b2 (ix2 p u)
      = ∑ j : Fin H, max (∑ k : Fin K, cat (ix2 p k) * w1 (ix2 k j) + b1 (ix1 j)) zeroWord * w2 (ix2 j u) + b2 (ix1 u) := rfl

end Idealize.ShloMosaic.DenseLayer

end
-- ==== Proof.LibColumnOfVector.lean ====
/-
  A vector laid out as one column.

  An array of shape `[a]` reshaped to `[a, 1]` keeps its entries in order: the entry at `(p, z)` (the unit coordinate
  `z` is `0`) is the vector's entry at `p`.
-/
import Idealize.ShloMosaic.Lib.Pipeline.Value
import Idealize.ShloMosaic.Lib.ValueIdx
import Idealize.ShloMosaic.Lib.ValueLayout

noncomputable section

namespace Idealize.ShloMosaic.ColumnOfVector

open Idealize.ShloMosaic Idealize.ShloMosaic.ValueIdx

/-- An `[a]` array cast to `[a, 1]` reads, at `(p, z)`, the operand at `p`. -/
theorem shapeCast_a_a1_apply {α : Type} {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

end Idealize.ShloMosaic.ColumnOfVector

end
-- ==== Proof.LibSageStage.lean ====
/-
  The two spellings of one dense stage, each equal to `Sage.layer` of its operands, over the extended reals.

  A row tile computes the stage as: divide the neighbour sums by the count column (first raised to at least `1`, then
  spread along the rows' features), multiply by the left weights, add the tile's own features times the right weights, add
  the bias row spread over the tile's rows; the operands of the two products are first narrowed to a shorter float
  format, which changes nothing here.  The host computes the same from the count as a vector (raised to at least `1`,
  laid out as a column, spread over the features) and the bias as a vector (laid out as a row, spread over the rows).
  At an entry `(p, q)` both are the two sums over the contracted coordinate plus the bias at `q`, in the same order.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«112658_j83623013253774_2_alg».proof.Proof.LibSageLayer
import proofs.«112658_j83623013253774_2_alg».proof.Proof.LibPlainDot
import proofs.«112658_j83623013253774_2_alg».proof.Proof.LibColumns
import proofs.«112658_j83623013253774_2_alg».proof.Proof.LibRegionBlockSpread
import proofs.«112658_j83623013253774_2_alg».proof.Proof.LibDense
import proofs.«112658_j83623013253774_2_alg».proof.Proof.LibColumnOfVector

noncomputable section

namespace Cert.Sage

open Idealize.ShloMosaic Idealize.ShloMosaic.ValueIdx

variable {M K N : ℕ}

/-- The count column raised to at least one and spread along the features reads, at `(p, k)`, `max (cnt (p, 0)) 1`. -/
theorem tileDivisor_apply (cnt : FVec Ideal ⟨2, ![M, 1]⟩ .f32)
    (hc : (⟨2, ![M, 1]⟩ : Shape).ShapeCasts ⟨2, ![M, 1]⟩) (hbc : (⟨2, ![M, 1]⟩ : Shape).Broadcasts ⟨2, ![M, K]⟩)
    (p : Fin M) (k : Fin K) :
    broadcastTo ⟨2, ![M, K]⟩ (maximumf (shapeCast ⟨2, ![M, 1]⟩ cnt hc)
        (broadcast ⟨2, ![M, 1]⟩ (Scalar.ofBits (F := Ideal) .f32 0x3F800000#32))) hbc (ix2 p k)
      = max (cnt (ix2 p (0 : Fin 1))) oneWord := by
  rw [broadcastTo_a1_ab_apply, shapeCast_self]
  rfl

/-- A tile's dense stage as its body computes it is the layer of the tile's arrays. -/
theorem tileStage_eq (d : DotDims ⟨2, ![M, K]⟩ ⟨2, ![K, N]⟩ ⟨2, ![M, N]⟩) (hd : d = DotDims.plain M K N)
    (cnt : FVec Ideal ⟨2, ![M, 1]⟩ .f32) (agg : FVec Ideal ⟨2, ![M, K]⟩ .f32) (h : FVec Ideal ⟨2, ![M, K]⟩ .bf16)
    (wl wr : FVec Ideal ⟨2, ![K, N]⟩ .f32) (b : FVec Ideal ⟨2, ![1, N]⟩ .f32)
    (hc : (⟨2, ![M, 1]⟩ : Shape).ShapeCasts ⟨2, ![M, 1]⟩) (ha : (⟨2, ![M, K]⟩ : Shape).ShapeCasts ⟨2, ![M, K]⟩)
    (hb : (⟨2, ![1, N]⟩ : Shape).ShapeCasts ⟨2, ![1, N]⟩)
    (hbc : (⟨2, ![M, 1]⟩ : Shape).Broadcasts ⟨2, ![M, K]⟩) (hbr : (⟨2, ![1, N]⟩ : Shape).Broadcasts ⟨2, ![M, N]⟩)
    (t : FTy.bf16.bits < FTy.f32.bits) :
    addf (addf
        (matmul d none (truncf .bf16 (divf (shapeCast ⟨2, ![M, K]⟩ agg ha)
            (broadcastTo ⟨2, ![M, K]⟩ (maximumf (shapeCast ⟨2, ![M, 1]⟩ cnt hc)
              (broadcast ⟨2, ![M, 1]⟩ (Scalar.ofBits (F := Ideal) .f32 0x3F800000#32))) hbc)) t)
          (truncf .bf16 wl t) (constant ⟨2, ![M, N]⟩ .f32 0x00000000#32))
        (matmul d none (shapeCast ⟨2, ![M, K]⟩ h ha) (truncf .bf16 wr t) (constant ⟨2, ![M, N]⟩ .f32 0x00000000#32)))
      (broadcastTo ⟨2, ![M, N]⟩ (shapeCast ⟨2, ![1, N]⟩ b hb) hbr)
    = layer agg h cnt wl wr b := by
  funext j
  obtain ⟨p, q, rfl⟩ : ∃ (p : Fin M) (q : Fin N), j = ix2 p q := ⟨j 0, j 1, eq_ix2 j⟩
  rw [layer_apply, addf_apply, addf_apply]
  show FloatOps.matmul d none _ _ (constant ⟨2, ![M, N]⟩ .f32 0x00000000#32) (ix2 p q)
      + FloatOps.matmul d none _ _ (constant ⟨2, ![M, N]⟩ .f32 0x00000000#32) (ix2 p q) + _ = _
  rw [PlainDot.matmul_zero_apply d hd, PlainDot.matmul_zero_apply d hd, broadcastTo_1b_ab_apply]
  refine congrArg₂ (· + ·) (congrArg₂ (· + ·) (Finset.sum_congr rfl fun k _ => ?_) (Finset.sum_congr rfl fun k _ => ?_)) ?_
  · show Ideal.div (shapeCast ⟨2, ![M, K]⟩ agg ha (ix2 p k)) (broadcastTo ⟨2, ![M, K]⟩ _ hbc (ix2 p k)) * wl (ix2 k q) = _
    rw [tileDivisor_apply, shapeCast_self]
  · show shapeCast ⟨2, ![M, K]⟩ h ha (ix2 p k) * wr (ix2 k q) = _
    rw [shapeCast_self]
  · rw [shapeCast_self]

/-- The count vector raised to at least one, laid out as a column and spread along the features, reads at `(p, k)`
    `max (cnt p) 1`. -/
theorem hostDivisor_apply (cntv : FVec Ideal ⟨1, ![M]⟩ .f32)
    (h0 : (⟨0, ![]⟩ : Shape).BroadcastsInDim ⟨1, ![M]⟩ (![] : Fin 0 → Fin 1))
    (h1 : (⟨1, ![M]⟩ : Shape).BroadcastsInDim ⟨2, ![M, 1]⟩ (![0] : Fin 1 → Fin 2))
    (h2 : (⟨2, ![M, 1]⟩ : Shape).BroadcastsInDim ⟨2, ![M, K]⟩ (![0, 1] : Fin 2 → Fin 2)) (p : Fin M) (k : Fin K) :
    broadcastInDim (s := ⟨2, ![M, 1]⟩) ⟨2, ![M, K]⟩ (![0, 1] : Fin 2 → Fin 2) h2 (broadcastInDim (s := ⟨1, ![M]⟩) ⟨2, ![M, 1]⟩ (![0] : Fin 1 → Fin 2) h1
        (maximumf cntv (broadcastInDim (s := ⟨0, ![]⟩) ⟨1, ![M]⟩ (![] : Fin 0 → Fin 1) h0 (constant (F := Ideal) ⟨0, ![]⟩ .f32 0x3F800000#32)))) (ix2 p k)
      = max (cntv (ix1 p)) oneWord := by
  rw [KeepDims.broadcastInDim_a1_ab_apply, KeepDims.broadcastInDim_a_a1_apply, maximumf_apply,
    broadcastInDim_apply (![] : Fin 0 → Fin 1) h0 _ (ix1 p) ix0 (fun a => a.elim0)]
  rfl

/-- The host's dense stage is the layer of its operands, the count laid out as a column and the bias as a row. -/
theorem hostStage_eq (d : DotDims ⟨2, ![M, K]⟩ ⟨2, ![K, N]⟩ ⟨2, ![M, N]⟩) (hd : d = DotDims.plain M K N)
    (agg x : FVec Ideal ⟨2, ![M, K]⟩ .f32) (cntv : FVec Ideal ⟨1, ![M]⟩ .f32)
    (wl wr : FVec Ideal ⟨2, ![K, N]⟩ .f32) (b : FVec Ideal ⟨1, ![N]⟩ .f32)
    (h0 : (⟨0, ![]⟩ : Shape).BroadcastsInDim ⟨1, ![M]⟩ (![] : Fin 0 → Fin 1))
    (h1 : (⟨1, ![M]⟩ : Shape).BroadcastsInDim ⟨2, ![M, 1]⟩ (![0] : Fin 1 → Fin 2))
    (h2 : (⟨2, ![M, 1]⟩ : Shape).BroadcastsInDim ⟨2, ![M, K]⟩ (![0, 1] : Fin 2 → Fin 2))
    (h3 : (⟨1, ![N]⟩ : Shape).BroadcastsInDim ⟨2, ![1, N]⟩ (![1] : Fin 1 → Fin 2))
    (h4 : (⟨2, ![1, N]⟩ : Shape).BroadcastsInDim ⟨2, ![M, N]⟩ (![0, 1] : Fin 2 → Fin 2))
    (hc : (⟨1, ![M]⟩ : Shape).ShapeCasts ⟨2, ![M, 1]⟩) (hr : (⟨1, ![N]⟩ : Shape).ShapeCasts ⟨2, ![1, N]⟩) :
    addf (addf
        (Host.dotGeneral d none (Host.divf agg (broadcastInDim (s := ⟨2, ![M, 1]⟩) ⟨2, ![M, K]⟩ (![0, 1] : Fin 2 → Fin 2) h2 (broadcastInDim (s := ⟨1, ![M]⟩) ⟨2, ![M, 1]⟩ (![0] : Fin 1 → Fin 2) h1
          (maximumf cntv (broadcastInDim (s := ⟨0, ![]⟩) ⟨1, ![M]⟩ (![] : Fin 0 → Fin 1) h0 (constant (F := Ideal) ⟨0, ![]⟩ .f32 0x3F800000#32)))))) wl)
        (Host.dotGeneral d none x wr))
      (broadcastInDim (s := ⟨2, ![1, N]⟩) ⟨2, ![M, N]⟩ (![0, 1] : Fin 2 → Fin 2) h4 (broadcastInDim (s := ⟨1, ![N]⟩) ⟨2, ![1, N]⟩ (![1] : Fin 1 → Fin 2) h3 b))
    = layer agg x (shapeCast ⟨2, ![M, 1]⟩ cntv hc) wl wr (shapeCast ⟨2, ![1, N]⟩ b hr) := by
  funext j
  obtain ⟨p, q, rfl⟩ : ∃ (p : Fin M) (q : Fin N), j = ix2 p q := ⟨j 0, j 1, eq_ix2 j⟩
  rw [layer_apply, addf_apply, addf_apply, DenseLayer.inDimRow_apply, shapeCast_a_1a_apply,
    ColumnOfVector.shapeCast_a_a1_apply]
  simp only [Host.dotGeneral]
  rw [PlainDot.dotGeneral_apply d hd, PlainDot.dotGeneral_apply d hd]
  refine congrArg₂ (· + ·) (congrArg₂ (· + ·) (Finset.sum_congr rfl fun k _ => ?_) rfl) rfl
  show Ideal.div (agg (ix2 p k)) (broadcastInDim (s := ⟨2, ![M, 1]⟩) ⟨2, ![M, K]⟩ (![0, 1] : Fin 2 → Fin 2) h2 _ (ix2 p k)) * wl (ix2 k q) = _
  rw [hostDivisor_apply]

end Cert.Sage

end
-- ==== Proof.Region0.lean ====
/-
  Region 0's output array after the region, as one function of the arrays the region is entered with.

  The region walks the node rows in twenty tiles of 5000. At tile `t` the body reads rows `5000 t … 5000 t + 4999` of the
  neighbour sums, of the node features and of the count column, and the whole weight matrices and bias row, and writes
  back rows `5000 t … 5000 t + 4999` of the result: the dense stage of exactly those rows. A row of the stage depends on
  the same row of its three row-wise operands only, so each written tile is that tile of the stage of the WHOLE arrays;
  the twenty tiles cover all 100000 rows, so the array ends holding the stage of the whole arrays.
-/
import proofs.«112658_j83623013253774_2_alg».proof.Proof.PatchedKernelIdealFrame
import proofs.«112658_j83623013253774_2_alg».proof.Proof.LibSageStage
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.GenP

variable (V : (c : Dev nD) → (b : Ref sig .tc) → Buf (Elt Ideal) ((c : Thread nD τ).loc b))

theorem zeroOffsets0 : (![0, 0] : Fin 2 → Nat) = fun _ => 0 := funext fun a => by fin_cases a <;> rfl

/-- What the body stores into the output tile is the dense stage of the tile's blocks. -/
theorem stored0 (x0 : Vec Ideal S5000x32 .f32) (x1 : Vec Ideal S5000x32 .bf16) (x2 : Vec Ideal S5000x1 .f32)
    (x3 x4 : Vec Ideal S32x64 .f32) (x5 : Vec Ideal S1x64 .f32) :
    out0_6 (F := Ideal) x0 x1 x2 x3 x4 x5 = Cert.Sage.layerRelu x0 x1 x2 x3 x4 x5 := by
  unfold out0_6
  rw [View.canon_unit_zero zeroOffsets0]
  simp only [View.ld_unit_zero (S := S5000x1) zeroOffsets0, View.ld_unit_zero (S := S5000x32) zeroOffsets0,
    View.ld_unit_zero (S := S32x64) zeroOffsets0, View.ld_unit_zero (S := S1x64) zeroOffsets0]
  unfold k0_pay1
  funext j
  exact congrArg (max · Cert.Sage.zeroWord) (congrFun (Cert.Sage.tileStage_eq dot_S5000x32_S32x64_S5000x64_1_0_0_1_n_n rfl x2 x0 x1 x3 x4 x5
    shapeCasts_S5000x1_S5000x1 shapeCasts_S5000x32_S5000x32 shapeCasts_S1x64_S1x64 broadcasts_S5000x1_S5000x32 broadcasts_S1x64_S5000x64
    bitsLt_bf16_f32) j)

/-- The printed index maps over the grid: the three row-wise inputs and the output sit at block row `t`, block column
    `0`; the weights and the bias at block `(0, 0)`. -/
theorem blockIndex0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `r` of tile `t` of the neighbour sums is row `5000 t + r` of the array. -/
theorem rows0_0 (c : Dev nD) (t : Fin cfg0.N) (r : Fin 5000) (k : Fin 32) (R : Fin 100000) (hR : R.val = t.val * 5000 + r.val) :
    (iblk0 V c 0 t : Vec Ideal S5000x32 .f32) (ix2 r k) = (V c main_v20 : S100000x32.Idx → EReal) (ix2 R k) := by
  obtain ⟨e0, e1, -⟩ := blockIndex0 t
  unfold iblk0
  rw [View.read_apply]
  show V c main_v20 _ = V c main_v20 _
  refine congrArg (V c main_v20) (funext fun a => Fin.ext ?_)
  match a with
  | ⟨0, _⟩ => show win0_0.index t 0 * 5000 + 1 * r.val = R.val; rw [e0, hR]; omega
  | ⟨1, _⟩ => show win0_0.index t 1 * 32 + 1 * k.val = k.val; rw [e1]; omega

/-- Row `r` of tile `t` of the node features is row `5000 t + r` of the array. -/
theorem rows0_1 (c : Dev nD) (t : Fin cfg0.N) (r : Fin 5000) (k : Fin 32) (R : Fin 100000) (hR : R.val = t.val * 5000 + r.val) :
    (iblk0 V c 1 t : Vec Ideal S5000x32 .bf16) (ix2 r k) = (V c main_v9 : S100000x32.Idx → EReal) (ix2 R k) := by
  obtain ⟨-, -, e0, e1, -⟩ := blockIndex0 t
  unfold iblk0
  rw [View.read_apply]
  show V c main_v9 _ = V c main_v9 _
  refine congrArg (V c main_v9) (funext fun a => Fin.ext ?_)
  match a with
  | ⟨0, _⟩ => show win0_1.index t 0 * 5000 + 1 * r.val = R.val; rw [e0, hR]; omega
  | ⟨1, _⟩ => show win0_1.index t 1 * 32 + 1 * k.val = k.val; rw [e1]; omega

/-- Row `r` of tile `t` of the count column is row `5000 t + r` of the column. -/
theorem rows0_2 (c : Dev nD) (t : Fin cfg0.N) (r : Fin 5000) (R : Fin 100000) (hR : R.val = t.val * 5000 + r.val) :
    (iblk0 V c 2 t : Vec Ideal S5000x1 .f32) (ix2 r (0 : Fin 1)) = (V c main_v8 : S100000x1.Idx → EReal) (ix2 R (0 : Fin 1)) := by
  obtain ⟨-, -, -, -, e0, e1, -⟩ := blockIndex0 t
  unfold iblk0
  rw [View.read_apply]
  show V c main_v8 _ = V c main_v8 _
  refine congrArg (V c main_v8) (funext fun a => Fin.ext ?_)
  match a with
  | ⟨0, _⟩ => show win0_2.index t 0 * 5000 + 1 * r.val = R.val; rw [e0, hR]; omega
  | ⟨1, _⟩ => show win0_2.index t 1 * 1 + 1 * 0 = 0; rw [e1]

/-- The left weights' one block is the whole array, at every tile. -/
theorem whole0_3 (c : Dev nD) (t : Fin cfg0.N) : (iblk0 V c 3 t : Vec Ideal S32x64 .f32) = (V c main_arg2 : S32x64.Idx → EReal) := by
  obtain ⟨-, -, -, -, -, -, e0, e1, -⟩ := blockIndex0 t
  unfold iblk0
  funext y
  rw [View.read_apply]
  show V c main_arg2 _ = V c main_arg2 _
  refine congrArg (V c main_arg2) (funext fun a => Fin.ext ?_)
  match a with
  | ⟨0, _⟩ => show win0_3.index t 0 * 32 + 1 * (y 0).val = (y 0).val; rw [e0]; omega
  | ⟨1, _⟩ => show win0_3.index t 1 * 64 + 1 * (y 1).val = (y 1).val; rw [e1]; omega

/-- The right weights' one block is the whole array, at every tile. -/
theorem whole0_4 (c : Dev nD) (t : Fin cfg0.N) : (iblk0 V c 4 t : Vec Ideal S32x64 .f32) = (V c main_arg3 : S32x64.Idx → EReal) := by
  obtain ⟨-, -, -, -, -, -, -, -, e0, e1, -⟩ := blockIndex0 t
  unfold iblk0
  funext y
  rw [View.read_apply]
  show V c main_arg3 _ = V c main_arg3 _
  refine congrArg (V c main_arg3) (funext fun a => Fin.ext ?_)
  match a with
  | ⟨0, _⟩ => show win0_4.index t 0 * 32 + 1 * (y 0).val = (y 0).val; rw [e0]; omega
  | ⟨1, _⟩ => show win0_4.index t 1 * 64 + 1 * (y 1).val = (y 1).val; rw [e1]; omega

/-- The bias row's one block is the whole row, at every tile. -/
theorem whole0_5 (c : Dev nD) (t : Fin cfg0.N) : (iblk0 V c 5 t : Vec Ideal S1x64 .f32) = (V c main_v21 : S1x64.Idx → EReal) := by
  obtain ⟨-, -, -, -, -, -, -, -, -, -, e0, e1, -⟩ := blockIndex0 t
  unfold iblk0
  funext y
  rw [View.read_apply]
  show V c main_v21 _ = V c main_v21 _
  refine congrArg (V c main_v21) (funext fun a => Fin.ext ?_)
  match a with
  | ⟨0, _⟩ => show win0_5.index t 0 * 1 + 1 * (y 0).val = (y 0).val; rw [e0]; omega
  | ⟨1, _⟩ => show win0_5.index t 1 * 64 + 1 * (y 1).val = (y 1).val; rw [e1]; omega

/-- WHAT TILE `t` WRITES BACK is tile `t` of the dense stage of the whole arrays. -/
theorem flushed0 (c : Dev nD) (t : Fin cfg0.N) :
    (dat0 V c).flushed 6 t = ((cfg0.win 6).blk t).view.read (Elt Ideal)
      (Cert.Sage.layerRelu (V c main_v20) (V c main_v9) (V c main_v8) (V c main_arg2) (V c main_arg3) (V c main_v21)) := by
  show (cfg0.win 6).cut (grid0.coords t) ((dat0 V c).after 6 t) = _
  rw [after0_6, stored0]
  funext j
  have hj0 : (j 0).val < 5000 := (j 0).isLt
  have hj1 : (j 1).val < 64 := (j 1).isLt
  have hN : cfg0.N = 20 := N_0
  have ht : t.val < 20 := hN ▸ t.isLt
  obtain ⟨-, -, -, -, -, -, -, -, -, -, -, -, e0, e1⟩ := blockIndex0 t
  have hE : ((cfg0.win 6).blk t).view.emb j
      = ix2 (⟨t.val * 5000 + (j 0).val, by omega⟩ : Fin 100000) (⟨(j 1).val, hj1⟩ : Fin 64) := funext fun a => Fin.ext (by
    match a with
    | ⟨0, _⟩ => show win0_6.index t 0 * 5000 + 1 * (j 0).val = t.val * 5000 + (j 0).val; rw [e0]; omega
    | ⟨1, _⟩ => show win0_6.index t 1 * 64 + 1 * (j 1).val = (j 1).val; rw [e1]; omega)
  have hJ : j = ix2 (⟨(j 0).val, hj0⟩ : Fin 5000) (⟨(j 1).val, hj1⟩ : Fin 64) := funext fun a => by
    match a with
    | ⟨0, _⟩ => rfl
    | ⟨1, _⟩ => rfl
  show Cert.Sage.layerRelu (M := 5000) (K := 32) (N := 64) _ _ _ _ _ _ j
    = Cert.Sage.layerRelu (M := 100000) (K := 32) (N := 64) _ _ _ _ _ _ (((cfg0.win 6).blk t).view.emb j)
  rw [hE]
  refine (congrArg (Cert.Sage.layerRelu (M := 5000) (K := 32) (N := 64) _ _ _ _ _ _) hJ).trans ?_
  exact Cert.Sage.layerRelu_row_congr (V c main_v20) (V c main_v9) (V c main_v8) _ _ _ (V c main_arg2) (V c main_arg3) (V c main_v21) _ _ _
    (⟨t.val * 5000 + (j 0).val, by omega⟩ : Fin 100000) (⟨(j 0).val, hj0⟩ : Fin 5000) (⟨(j 1).val, hj1⟩ : Fin 64)
    (fun k => rows0_0 V c t _ k _ rfl) (fun k => rows0_1 V c t _ k _ rfl) (rows0_2 V c t _ _ rfl)
    (whole0_3 V c t) (whole0_4 V c t) (whole0_5 V c t)

/-- An index of the array is in tile `t`'s block iff each coordinate is in the block's range on its axis. -/
theorem mem_tile0 (t : Fin cfg0.N) (i : S100000x64.Idx) :
    i ∈ ((cfg0.win 6).blk t).view.set ↔ ∀ a : Fin 2, win0_6.index t a * S5000x64.size a ≤ (i a).val
      ∧ (i a).val < win0_6.index t a * S5000x64.size a + S5000x64.size a := by
  show i ∈ ((View.whole main_v22).slice (win0_6.rect t)).set ↔ _
  rw [View.set_slice_whole, Rect.mem_set_unit]
  exact Iff.rfl

/-- THE ARRAY after the region: the dense stage of the arrays the region was entered with. -/
theorem final0 (c : Dev nD) : (dat0 V c).arrAt 6 cfg0.N
    = Cert.Sage.layerRelu (V c main_v20) (V c main_v9) (V c main_v8) (V c main_arg2) (V c main_arg3) (V c main_v21) :=
  (dat0 V c).arrAt_eq_of_cover 6 _ (fun t _ => flushed0 V c t) fun i => by
    have hi0 : (i 0).val < 100000 := (i 0).isLt
    have hi1 : (i 1).val < 64 := (i 1).isLt
    have hN : cfg0.N = 20 := N_0
    obtain ⟨-, -, -, -, -, -, -, -, -, -, -, -, e0, e1⟩ := blockIndex0 (⟨(i 0).val / 5000, by rw [hN]; omega⟩ : Fin cfg0.N)
    refine ⟨⟨(i 0).val / 5000, by rw [hN]; omega⟩, flush0_6 _, ?_⟩
    rw [mem_tile0]
    intro a
    match a with
    | ⟨0, _⟩ =>
      show win0_6.index _ 0 * 5000 ≤ (i 0).val ∧ (i 0).val < win0_6.index _ 0 * 5000 + 5000
      rw [e0]
      show (i 0).val / 5000 * 5000 ≤ (i 0).val ∧ (i 0).val < (i 0).val / 5000 * 5000 + 5000
      omega
    | ⟨1, _⟩ =>
      show win0_6.index _ 1 * 64 ≤ (i 1).val ∧ (i 1).val < win0_6.index _ 1 * 64 + 64
      rw [e1]
      omega

end Cert.KernelIdeal.Hand

end
-- ==== Proof.Region1.lean ====
/-
  Region 1's output array after the region, as one function of the arrays the region is entered with.

  The region walks the node rows in twenty tiles of 5000. At tile `t` the body reads rows `5000 t … 5000 t + 4999` of the
  neighbour sums, of the node features and of the count column, and the whole weight matrices and bias row, and writes
  back rows `5000 t … 5000 t + 4999` of the result: the dense stage of exactly those rows. A row of the stage depends on
  the same row of its three row-wise operands only, so each written tile is that tile of the stage of the WHOLE arrays;
  the twenty tiles cover all 100000 rows, so the array ends holding the stage of the whole arrays.
-/
import proofs.«112658_j83623013253774_2_alg».proof.Proof.PatchedKernelIdealFrame
import proofs.«112658_j83623013253774_2_alg».proof.Proof.LibSageStage
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.GenP

variable (V : (c : Dev nD) → (b : Ref sig .tc) → Buf (Elt Ideal) ((c : Thread nD τ).loc b))

theorem zeroOffsets1 : (![0, 0] : Fin 2 → Nat) = fun _ => 0 := funext fun a => by fin_cases a <;> rfl

/-- What the body stores into the output tile is the dense stage of the tile's blocks. -/
theorem stored1 (x0 : Vec Ideal S5000x64 .f32) (x1 : Vec Ideal S5000x64 .bf16) (x2 : Vec Ideal S5000x1 .f32)
    (x3 x4 : Vec Ideal S64x64 .f32) (x5 : Vec Ideal S1x64 .f32) :
    out1_6 (F := Ideal) x0 x1 x2 x3 x4 x5 = Cert.Sage.layerRelu x0 x1 x2 x3 x4 x5 := by
  unfold out1_6
  rw [View.canon_unit_zero zeroOffsets1]
  simp only [View.ld_unit_zero (S := S5000x1) zeroOffsets1, View.ld_unit_zero (S := S5000x64) zeroOffsets1,
    View.ld_unit_zero (S := S64x64) zeroOffsets1, View.ld_unit_zero (S := S1x64) zeroOffsets1]
  unfold k1_pay1
  funext j
  exact congrArg (max · Cert.Sage.zeroWord) (congrFun (Cert.Sage.tileStage_eq dot_S5000x64_S64x64_S5000x64_1_0_0_1_n_n rfl x2 x0 x1 x3 x4 x5
    shapeCasts_S5000x1_S5000x1 shapeCasts_S5000x64_S5000x64 shapeCasts_S1x64_S1x64 broadcasts_S5000x1_S5000x64 broadcasts_S1x64_S5000x64
    bitsLt_bf16_f32) j)

/-- The printed index maps over the grid: the three row-wise inputs and the output sit at block row `t`, block column
    `0`; the weights and the bias at block `(0, 0)`. -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `r` of tile `t` of the neighbour sums is row `5000 t + r` of the array. -/
theorem rows1_0 (c : Dev nD) (t : Fin cfg1.N) (r : Fin 5000) (k : Fin 64) (R : Fin 100000) (hR : R.val = t.val * 5000 + r.val) :
    (iblk1 V c 0 t : Vec Ideal S5000x64 .f32) (ix2 r k) = (V c main_v33 : S100000x64.Idx → EReal) (ix2 R k) := by
  obtain ⟨e0, e1, -⟩ := blockIndex1 t
  unfold iblk1
  rw [View.read_apply]
  show V c main_v33 _ = V c main_v33 _
  refine congrArg (V c main_v33) (funext fun a => Fin.ext ?_)
  match a with
  | ⟨0, _⟩ => show win1_0.index t 0 * 5000 + 1 * r.val = R.val; rw [e0, hR]; omega
  | ⟨1, _⟩ => show win1_0.index t 1 * 64 + 1 * k.val = k.val; rw [e1]; omega

/-- Row `r` of tile `t` of the node features is row `5000 t + r` of the array. -/
theorem rows1_1 (c : Dev nD) (t : Fin cfg1.N) (r : Fin 5000) (k : Fin 64) (R : Fin 100000) (hR : R.val = t.val * 5000 + r.val) :
    (iblk1 V c 1 t : Vec Ideal S5000x64 .bf16) (ix2 r k) = (V c main_v22 : S100000x64.Idx → EReal) (ix2 R k) := by
  obtain ⟨-, -, e0, e1, -⟩ := blockIndex1 t
  unfold iblk1
  rw [View.read_apply]
  show V c main_v22 _ = V c main_v22 _
  refine congrArg (V c main_v22) (funext fun a => Fin.ext ?_)
  match a with
  | ⟨0, _⟩ => show win1_1.index t 0 * 5000 + 1 * r.val = R.val; rw [e0, hR]; omega
  | ⟨1, _⟩ => show win1_1.index t 1 * 64 + 1 * k.val = k.val; rw [e1]; omega

/-- Row `r` of tile `t` of the count column is row `5000 t + r` of the column. -/
theorem rows1_2 (c : Dev nD) (t : Fin cfg1.N) (r : Fin 5000) (R : Fin 100000) (hR : R.val = t.val * 5000 + r.val) :
    (iblk1 V c 2 t : Vec Ideal S5000x1 .f32) (ix2 r (0 : Fin 1)) = (V c main_v8 : S100000x1.Idx → EReal) (ix2 R (0 : Fin 1)) := by
  obtain ⟨-, -, -, -, e0, e1, -⟩ := blockIndex1 t
  unfold iblk1
  rw [View.read_apply]
  show V c main_v8 _ = V c main_v8 _
  refine congrArg (V c main_v8) (funext fun a => Fin.ext ?_)
  match a with
  | ⟨0, _⟩ => show win1_2.index t 0 * 5000 + 1 * r.val = R.val; rw [e0, hR]; omega
  | ⟨1, _⟩ => show win1_2.index t 1 * 1 + 1 * 0 = 0; rw [e1]

/-- The left weights' one block is the whole array, at every tile. -/
theorem whole1_3 (c : Dev nD) (t : Fin cfg1.N) : (iblk1 V c 3 t : Vec Ideal S64x64 .f32) = (V c main_arg5 : S64x64.Idx → EReal) := by
  obtain ⟨-, -, -, -, -, -, e0, e1, -⟩ := blockIndex1 t
  unfold iblk1
  funext y
  rw [View.read_apply]
  show V c main_arg5 _ = V c main_arg5 _
  refine congrArg (V c main_arg5) (funext fun a => Fin.ext ?_)
  match a with
  | ⟨0, _⟩ => show win1_3.index t 0 * 64 + 1 * (y 0).val = (y 0).val; rw [e0]; omega
  | ⟨1, _⟩ => show win1_3.index t 1 * 64 + 1 * (y 1).val = (y 1).val; rw [e1]; omega

/-- The right weights' one block is the whole array, at every tile. -/
theorem whole1_4 (c : Dev nD) (t : Fin cfg1.N) : (iblk1 V c 4 t : Vec Ideal S64x64 .f32) = (V c main_arg6 : S64x64.Idx → EReal) := by
  obtain ⟨-, -, -, -, -, -, -, -, e0, e1, -⟩ := blockIndex1 t
  unfold iblk1
  funext y
  rw [View.read_apply]
  show V c main_arg6 _ = V c main_arg6 _
  refine congrArg (V c main_arg6) (funext fun a => Fin.ext ?_)
  match a with
  | ⟨0, _⟩ => show win1_4.index t 0 * 64 + 1 * (y 0).val = (y 0).val; rw [e0]; omega
  | ⟨1, _⟩ => show win1_4.index t 1 * 64 + 1 * (y 1).val = (y 1).val; rw [e1]; omega

/-- The bias row's one block is the whole row, at every tile. -/
theorem whole1_5 (c : Dev nD) (t : Fin cfg1.N) : (iblk1 V c 5 t : Vec Ideal S1x64 .f32) = (V c main_v34 : S1x64.Idx → EReal) := by
  obtain ⟨-, -, -, -, -, -, -, -, -, -, e0, e1, -⟩ := blockIndex1 t
  unfold iblk1
  funext y
  rw [View.read_apply]
  show V c main_v34 _ = V c main_v34 _
  refine congrArg (V c main_v34) (funext fun a => Fin.ext ?_)
  match a with
  | ⟨0, _⟩ => show win1_5.index t 0 * 1 + 1 * (y 0).val = (y 0).val; rw [e0]; omega
  | ⟨1, _⟩ => show win1_5.index t 1 * 64 + 1 * (y 1).val = (y 1).val; rw [e1]; omega

/-- WHAT TILE `t` WRITES BACK is tile `t` of the dense stage of the whole arrays. -/
theorem flushed1 (c : Dev nD) (t : Fin cfg1.N) :
    (dat1 V c).flushed 6 t = ((cfg1.win 6).blk t).view.read (Elt Ideal)
      (Cert.Sage.layerRelu (V c main_v33) (V c main_v22) (V c main_v8) (V c main_arg5) (V c main_arg6) (V c main_v34)) := by
  show (cfg1.win 6).cut (grid1.coords t) ((dat1 V c).after 6 t) = _
  rw [after1_6, stored1]
  funext j
  have hj0 : (j 0).val < 5000 := (j 0).isLt
  have hj1 : (j 1).val < 64 := (j 1).isLt
  have hN : cfg1.N = 20 := N_1
  have ht : t.val < 20 := hN ▸ t.isLt
  obtain ⟨-, -, -, -, -, -, -, -, -, -, -, -, e0, e1⟩ := blockIndex1 t
  have hE : ((cfg1.win 6).blk t).view.emb j
      = ix2 (⟨t.val * 5000 + (j 0).val, by omega⟩ : Fin 100000) (⟨(j 1).val, hj1⟩ : Fin 64) := funext fun a => Fin.ext (by
    match a with
    | ⟨0, _⟩ => show win1_6.index t 0 * 5000 + 1 * (j 0).val = t.val * 5000 + (j 0).val; rw [e0]; omega
    | ⟨1, _⟩ => show win1_6.index t 1 * 64 + 1 * (j 1).val = (j 1).val; rw [e1]; omega)
  have hJ : j = ix2 (⟨(j 0).val, hj0⟩ : Fin 5000) (⟨(j 1).val, hj1⟩ : Fin 64) := funext fun a => by
    match a with
    | ⟨0, _⟩ => rfl
    | ⟨1, _⟩ => rfl
  show Cert.Sage.layerRelu (M := 5000) (K := 64) (N := 64) _ _ _ _ _ _ j
    = Cert.Sage.layerRelu (M := 100000) (K := 64) (N := 64) _ _ _ _ _ _ (((cfg1.win 6).blk t).view.emb j)
  rw [hE]
  refine (congrArg (Cert.Sage.layerRelu (M := 5000) (K := 64) (N := 64) _ _ _ _ _ _) hJ).trans ?_
  exact Cert.Sage.layerRelu_row_congr (V c main_v33) (V c main_v22) (V c main_v8) _ _ _ (V c main_arg5) (V c main_arg6) (V c main_v34) _ _ _
    (⟨t.val * 5000 + (j 0).val, by omega⟩ : Fin 100000) (⟨(j 0).val, hj0⟩ : Fin 5000) (⟨(j 1).val, hj1⟩ : Fin 64)
    (fun k => rows1_0 V c t _ k _ rfl) (fun k => rows1_1 V c t _ k _ rfl) (rows1_2 V c t _ _ rfl)
    (whole1_3 V c t) (whole1_4 V c t) (whole1_5 V c t)

/-- An index of the array is in tile `t`'s block iff each coordinate is in the block's range on its axis. -/
theorem mem_tile1 (t : Fin cfg1.N) (i : S100000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v35).slice (win1_6.rect t)).set ↔ _
  rw [View.set_slice_whole, Rect.mem_set_unit]
  exact Iff.rfl

/-- THE ARRAY after the region: the dense stage of the arrays the region was entered with. -/
theorem final1 (c : Dev nD) : (dat1 V c).arrAt 6 cfg1.N
    = Cert.Sage.layerRelu (V c main_v33) (V c main_v22) (V c main_v8) (V c main_arg5) (V c main_arg6) (V c main_v34) :=
  (dat1 V c).arrAt_eq_of_cover 6 _ (fun t _ => flushed1 V c t) fun i => by
    have hi0 : (i 0).val < 100000 := (i 0).isLt
    have hi1 : (i 1).val < 64 := (i 1).isLt
    have hN : cfg1.N = 20 := N_1
    obtain ⟨-, -, -, -, -, -, -, -, -, -, -, -, e0, e1⟩ := blockIndex1 (⟨(i 0).val / 5000, by rw [hN]; omega⟩ : Fin cfg1.N)
    refine ⟨⟨(i 0).val / 5000, by rw [hN]; omega⟩, flush1_6 _, ?_⟩
    rw [mem_tile1]
    intro a
    match a with
    | ⟨0, _⟩ =>
      show win1_6.index _ 0 * 5000 ≤ (i 0).val ∧ (i 0).val < win1_6.index _ 0 * 5000 + 5000
      rw [e0]
      show (i 0).val / 5000 * 5000 ≤ (i 0).val ∧ (i 0).val < (i 0).val / 5000 * 5000 + 5000
      omega
    | ⟨1, _⟩ =>
      show win1_6.index _ 1 * 64 ≤ (i 1).val ∧ (i 1).val < win1_6.index _ 1 * 64 + 64
      rw [e1]
      omega

end Cert.KernelIdeal.Hand

end
-- ==== Proof.Region2.lean ====
/-
  Region 2's output array after the region, as one function of the arrays the region is entered with.

  The region walks the node rows in twenty tiles of 5000. At tile `t` the body reads rows `5000 t … 5000 t + 4999` of the
  neighbour sums, of the node features and of the count column, and the whole weight matrices and bias row, and writes
  back rows `5000 t … 5000 t + 4999` of the result: the dense stage of exactly those rows. A row of the stage depends on
  the same row of its three row-wise operands only, so each written tile is that tile of the stage of the WHOLE arrays;
  the twenty tiles cover all 100000 rows, so the array ends holding the stage of the whole arrays.
-/
import proofs.«112658_j83623013253774_2_alg».proof.Proof.PatchedKernelIdealFrame
import proofs.«112658_j83623013253774_2_alg».proof.Proof.LibSageStage
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.GenP

variable (V : (c : Dev nD) → (b : Ref sig .tc) → Buf (Elt Ideal) ((c : Thread nD τ).loc b))

theorem zeroOffsets2 : (![0, 0] : Fin 2 → Nat) = fun _ => 0 := funext fun a => by fin_cases a <;> rfl

/-- What the body stores into the output tile is the dense stage of the tile's blocks. -/
theorem stored2 (x0 : Vec Ideal S5000x64 .f32) (x1 : Vec Ideal S5000x64 .bf16) (x2 : Vec Ideal S5000x1 .f32)
    (x3 x4 : Vec Ideal S64x1 .f32) (x5 : Vec Ideal S1x1 .f32) :
    out2_6 (F := Ideal) x0 x1 x2 x3 x4 x5 = Cert.Sage.layer x0 x1 x2 x3 x4 x5 := by
  unfold out2_6
  rw [View.canon_unit_zero zeroOffsets2]
  simp only [View.ld_unit_zero (S := S5000x1) zeroOffsets2, View.ld_unit_zero (S := S5000x64) zeroOffsets2,
    View.ld_unit_zero (S := S64x1) zeroOffsets2, View.ld_unit_zero (S := S1x1) zeroOffsets2]
  unfold k2_pay1
  funext j
  exact (congrFun (Cert.Sage.tileStage_eq dot_S5000x64_S64x1_S5000x1_1_0_0_1_n_n rfl x2 x0 x1 x3 x4 x5
    shapeCasts_S5000x1_S5000x1 shapeCasts_S5000x64_S5000x64 shapeCasts_S1x1_S1x1 broadcasts_S5000x1_S5000x64 broadcasts_S1x1_S5000x1
    bitsLt_bf16_f32) j)

/-- The printed index maps over the grid: the three row-wise inputs and the output sit at block row `t`, block column
    `0`; the weights and the bias at block `(0, 0)`. -/
theorem blockIndex2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Row `r` of tile `t` of the neighbour sums is row `5000 t + r` of the array. -/
theorem rows2_0 (c : Dev nD) (t : Fin cfg2.N) (r : Fin 5000) (k : Fin 64) (R : Fin 100000) (hR : R.val = t.val * 5000 + r.val) :
    (iblk2 V c 0 t : Vec Ideal S5000x64 .f32) (ix2 r k) = (V c main_v46 : S100000x64.Idx → EReal) (ix2 R k) := by
  obtain ⟨e0, e1, -⟩ := blockIndex2 t
  unfold iblk2
  rw [View.read_apply]
  show V c main_v46 _ = V c main_v46 _
  refine congrArg (V c main_v46) (funext fun a => Fin.ext ?_)
  match a with
  | ⟨0, _⟩ => show win2_0.index t 0 * 5000 + 1 * r.val = R.val; rw [e0, hR]; omega
  | ⟨1, _⟩ => show win2_0.index t 1 * 64 + 1 * k.val = k.val; rw [e1]; omega

/-- Row `r` of tile `t` of the node features is row `5000 t + r` of the array. -/
theorem rows2_1 (c : Dev nD) (t : Fin cfg2.N) (r : Fin 5000) (k : Fin 64) (R : Fin 100000) (hR : R.val = t.val * 5000 + r.val) :
    (iblk2 V c 1 t : Vec Ideal S5000x64 .bf16) (ix2 r k) = (V c main_v35 : S100000x64.Idx → EReal) (ix2 R k) := by
  obtain ⟨-, -, e0, e1, -⟩ := blockIndex2 t
  unfold iblk2
  rw [View.read_apply]
  show V c main_v35 _ = V c main_v35 _
  refine congrArg (V c main_v35) (funext fun a => Fin.ext ?_)
  match a with
  | ⟨0, _⟩ => show win2_1.index t 0 * 5000 + 1 * r.val = R.val; rw [e0, hR]; omega
  | ⟨1, _⟩ => show win2_1.index t 1 * 64 + 1 * k.val = k.val; rw [e1]; omega

/-- Row `r` of tile `t` of the count column is row `5000 t + r` of the column. -/
theorem rows2_2 (c : Dev nD) (t : Fin cfg2.N) (r : Fin 5000) (R : Fin 100000) (hR : R.val = t.val * 5000 + r.val) :
    (iblk2 V c 2 t : Vec Ideal S5000x1 .f32) (ix2 r (0 : Fin 1)) = (V c main_v8 : S100000x1.Idx → EReal) (ix2 R (0 : Fin 1)) := by
  obtain ⟨-, -, -, -, e0, e1, -⟩ := blockIndex2 t
  unfold iblk2
  rw [View.read_apply]
  show V c main_v8 _ = V c main_v8 _
  refine congrArg (V c main_v8) (funext fun a => Fin.ext ?_)
  match a with
  | ⟨0, _⟩ => show win2_2.index t 0 * 5000 + 1 * r.val = R.val; rw [e0, hR]; omega
  | ⟨1, _⟩ => show win2_2.index t 1 * 1 + 1 * 0 = 0; rw [e1]

/-- The left weights' one block is the whole array, at every tile. -/
theorem whole2_3 (c : Dev nD) (t : Fin cfg2.N) : (iblk2 V c 3 t : Vec Ideal S64x1 .f32) = (V c main_arg8 : S64x1.Idx → EReal) := by
  obtain ⟨-, -, -, -, -, -, e0, e1, -⟩ := blockIndex2 t
  unfold iblk2
  funext y
  rw [View.read_apply]
  show V c main_arg8 _ = V c main_arg8 _
  refine congrArg (V c main_arg8) (funext fun a => Fin.ext ?_)
  match a with
  | ⟨0, _⟩ => show win2_3.index t 0 * 64 + 1 * (y 0).val = (y 0).val; rw [e0]; omega
  | ⟨1, _⟩ => show win2_3.index t 1 * 1 + 1 * (y 1).val = (y 1).val; rw [e1]; omega

/-- The right weights' one block is the whole array, at every tile. -/
theorem whole2_4 (c : Dev nD) (t : Fin cfg2.N) : (iblk2 V c 4 t : Vec Ideal S64x1 .f32) = (V c main_arg9 : S64x1.Idx → EReal) := by
  obtain ⟨-, -, -, -, -, -, -, -, e0, e1, -⟩ := blockIndex2 t
  unfold iblk2
  funext y
  rw [View.read_apply]
  show V c main_arg9 _ = V c main_arg9 _
  refine congrArg (V c main_arg9) (funext fun a => Fin.ext ?_)
  match a with
  | ⟨0, _⟩ => show win2_4.index t 0 * 64 + 1 * (y 0).val = (y 0).val; rw [e0]; omega
  | ⟨1, _⟩ => show win2_4.index t 1 * 1 + 1 * (y 1).val = (y 1).val; rw [e1]; omega

/-- The bias row's one block is the whole row, at every tile. -/
theorem whole2_5 (c : Dev nD) (t : Fin cfg2.N) : (iblk2 V c 5 t : Vec Ideal S1x1 .f32) = (V c main_v47 : S1x1.Idx → EReal) := by
  obtain ⟨-, -, -, -, -, -, -, -, -, -, e0, e1, -⟩ := blockIndex2 t
  unfold iblk2
  funext y
  rw [View.read_apply]
  show V c main_v47 _ = V c main_v47 _
  refine congrArg (V c main_v47) (funext fun a => Fin.ext ?_)
  match a with
  | ⟨0, _⟩ => show win2_5.index t 0 * 1 + 1 * (y 0).val = (y 0).val; rw [e0]; omega
  | ⟨1, _⟩ => show win2_5.index t 1 * 1 + 1 * (y 1).val = (y 1).val; rw [e1]; omega

/-- WHAT TILE `t` WRITES BACK is tile `t` of the dense stage of the whole arrays. -/
theorem flushed2 (c : Dev nD) (t : Fin cfg2.N) :
    (dat2 V c).flushed 6 t = ((cfg2.win 6).blk t).view.read (Elt Ideal)
      (Cert.Sage.layer (V c main_v46) (V c main_v35) (V c main_v8) (V c main_arg8) (V c main_arg9) (V c main_v47)) := by
  show (cfg2.win 6).cut (grid2.coords t) ((dat2 V c).after 6 t) = _
  rw [after2_6, stored2]
  funext j
  have hj0 : (j 0).val < 5000 := (j 0).isLt
  have hj1 : (j 1).val < 1 := (j 1).isLt
  have hN : cfg2.N = 20 := N_2
  have ht : t.val < 20 := hN ▸ t.isLt
  obtain ⟨-, -, -, -, -, -, -, -, -, -, -, -, e0, e1⟩ := blockIndex2 t
  have hE : ((cfg2.win 6).blk t).view.emb j
      = ix2 (⟨t.val * 5000 + (j 0).val, by omega⟩ : Fin 100000) (⟨(j 1).val, hj1⟩ : Fin 1) := funext fun a => Fin.ext (by
    match a with
    | ⟨0, _⟩ => show win2_6.index t 0 * 5000 + 1 * (j 0).val = t.val * 5000 + (j 0).val; rw [e0]; omega
    | ⟨1, _⟩ => show win2_6.index t 1 * 1 + 1 * (j 1).val = (j 1).val; rw [e1]; omega)
  have hJ : j = ix2 (⟨(j 0).val, hj0⟩ : Fin 5000) (⟨(j 1).val, hj1⟩ : Fin 1) := funext fun a => by
    match a with
    | ⟨0, _⟩ => rfl
    | ⟨1, _⟩ => rfl
  show Cert.Sage.layer (M := 5000) (K := 64) (N := 1) _ _ _ _ _ _ j
    = Cert.Sage.layer (M := 100000) (K := 64) (N := 1) _ _ _ _ _ _ (((cfg2.win 6).blk t).view.emb j)
  rw [hE]
  refine (congrArg (Cert.Sage.layer (M := 5000) (K := 64) (N := 1) _ _ _ _ _ _) hJ).trans ?_
  exact Cert.Sage.layer_row_congr (V c main_v46) (V c main_v35) (V c main_v8) _ _ _ (V c main_arg8) (V c main_arg9) (V c main_v47) _ _ _
    (⟨t.val * 5000 + (j 0).val, by omega⟩ : Fin 100000) (⟨(j 0).val, hj0⟩ : Fin 5000) (⟨(j 1).val, hj1⟩ : Fin 1)
    (fun k => rows2_0 V c t _ k _ rfl) (fun k => rows2_1 V c t _ k _ rfl) (rows2_2 V c t _ _ rfl)
    (whole2_3 V c t) (whole2_4 V c t) (whole2_5 V c t)

/-- An index of the array is in tile `t`'s block iff each coordinate is in the block's range on its axis. -/
theorem mem_tile2 (t : Fin cfg2.N) (i : S100000x1.Idx) :
    i ∈ ((cfg2.win 6).blk t).view.set ↔ ∀ a : Fin 2, win2_6.index t a * S5000x1.size a ≤ (i a).val
      ∧ (i a).val < win2_6.index t a * S5000x1.size a + S5000x1.size a := by
  show i ∈ ((View.whole main_v48).slice (win2_6.rect t)).set ↔ _
  rw [View.set_slice_whole, Rect.mem_set_unit]
  exact Iff.rfl

/-- THE ARRAY after the region: the dense stage of the arrays the region was entered with. -/
theorem final2 (c : Dev nD) : (dat2 V c).arrAt 6 cfg2.N
    = Cert.Sage.layer (V c main_v46) (V c main_v35) (V c main_v8) (V c main_arg8) (V c main_arg9) (V c main_v47) :=
  (dat2 V c).arrAt_eq_of_cover 6 _ (fun t _ => flushed2 V c t) fun i => by
    have hi0 : (i 0).val < 100000 := (i 0).isLt
    have hi1 : (i 1).val < 1 := (i 1).isLt
    have hN : cfg2.N = 20 := N_2
    obtain ⟨-, -, -, -, -, -, -, -, -, -, -, -, e0, e1⟩ := blockIndex2 (⟨(i 0).val / 5000, by rw [hN]; omega⟩ : Fin cfg2.N)
    refine ⟨⟨(i 0).val / 5000, by rw [hN]; omega⟩, flush2_6 _, ?_⟩
    rw [mem_tile2]
    intro a
    match a with
    | ⟨0, _⟩ =>
      show win2_6.index _ 0 * 5000 ≤ (i 0).val ∧ (i 0).val < win2_6.index _ 0 * 5000 + 5000
      rw [e0]
      show (i 0).val / 5000 * 5000 ≤ (i 0).val ∧ (i 0).val < (i 0).val / 5000 * 5000 + 5000
      omega
    | ⟨1, _⟩ =>
      show win2_6.index _ 1 * 1 ≤ (i 1).val ∧ (i 1).val < win2_6.index _ 1 * 1 + 1
      rw [e1]
      omega

end Cert.KernelIdeal.Hand

end
-- ==== Proof.RefNet.lean ====
/-
  The reference program's result as one function of its argument arrays, over the extended reals.

  Each of the three layers gathers the rows `h[src]` of the current node features, adds them up per target node
  (`aggregate`), counts the edges arriving at each node (`countVector`; the same count in every layer), and applies the
  dense stage: the neighbour sums divided by the count raised to at least one, times the left weights, plus the node's
  own features times the right weights, plus the bias.  The first two layers end with a maximum with zero.  The edge list
  is read through the same index arithmetic every time.  `result` spells the program's composed term with these names;
  it is that term by definition.
-/
import proofs.«112658_j83623013253774_2_alg».proof.Proof.Gen.ReferenceIdeal.Run
import Idealize.ShloMosaic.PureOps.Ideal

noncomputable section

namespace Cert.ReferenceIdeal.Net

open Cert.ReferenceIdeal Cert.ReferenceIdeal.Gen Idealize.ShloMosaic

/-- Row 0 of the edge list: the source node of every edge. -/
def source (ei : IVec S2x1600000 32) : IVec S1600000 32 :=
  shapeCast S1600000 (extractStridedSlice S1x1600000 ![0, 0] ei slices_S2x1600000_S1x1600000_0_0) shapeCasts_S1x1600000_S1600000

/-- Row 1 of the edge list: the target node of every edge. -/
def target (ei : IVec S2x1600000 32) : IVec S1600000 32 :=
  shapeCast S1600000 (extractStridedSlice S1x1600000 ![1, 0] ei slices_S2x1600000_S1x1600000_1_0) shapeCasts_S1x1600000_S1600000

/-- The target nodes as the one-column index array the sums are scattered by. -/
def targetColumn (ei : IVec S2x1600000 32) : IVec S1600000x1 32 :=
  broadcastInDim S1600000x1 ![0] bcast_S1600000_S1600000x1_0 (target ei)

/-- The source nodes as the one-column index array rows are gathered by, a negative index wrapped by the node count. -/
def sourceColumn (ei : IVec S2x1600000 32) : IVec S1600000x1 32 :=
  broadcastInDim S1600000x1 ![0] bcast_S1600000_S1600000x1_0
    (select (cmpi .slt (source ei) (broadcastInDim S1600000 ![] bcast_S_S1600000 (constantI S_ 32 0#32)))
      (addi (source ei) (broadcastInDim S1600000 ![] bcast_S_S1600000 (constantI S_ 32 100000#32))) (source ei))

/-- The number of edges arriving at each node. -/
def countVector (ei : IVec S2x1600000 32) : FVec Ideal S100000 .f32 :=
  Host.scatterAdd scatter_S100000_S1600000x1_S1600000_n_0_0_1
    (broadcastInDim S100000 ![] bcast_S_S100000 (constant (F := Ideal) S_ .f32 0x00000000#32)) (targetColumn ei)
    (broadcastInDim S1600000 ![] bcast_S_S1600000 (constant (F := Ideal) S_ .f32 0x3F800000#32))

/-- The sum, per target node, of the 32 features of its edges' source nodes. -/
def aggregate32 (h : FVec Ideal S100000x32 .f32) (ei : IVec S2x1600000 32) : FVec Ideal S100000x32 .f32 :=
  Host.scatterAdd scatter_S100000x32_S1600000x1_S1600000x32_1_0_0_1
    (broadcastInDim S100000x32 ![] bcast_S_S100000x32 (constant (F := Ideal) S_ .f32 0x00000000#32)) (targetColumn ei)
    (Host.gather gather_S100000x32_S1600000x1_S1600000x32_1_0_n_n_0_1_132 h (sourceColumn ei))

/-- The sum, per target node, of the 64 features of its edges' source nodes. -/
def aggregate64 (h : FVec Ideal S100000x64 .f32) (ei : IVec S2x1600000 32) : FVec Ideal S100000x64 .f32 :=
  Host.scatterAdd scatter_S100000x64_S1600000x1_S1600000x64_1_0_0_1
    (broadcastInDim S100000x64 ![] bcast_S_S100000x64 (constant (F := Ideal) S_ .f32 0x00000000#32)) (targetColumn ei)
    (Host.gather gather_S100000x64_S1600000x1_S1600000x64_1_0_n_n_0_1_164 h (sourceColumn ei))

/-- The first layer's dense stage, from the neighbour sums `agg`, the features `h` and the count `cnt`. -/
def stage0 (agg h : FVec Ideal S100000x32 .f32) (cnt : FVec Ideal S100000 .f32)
    (wl wr : FVec Ideal S32x64 .f32) (b : FVec Ideal S64 .f32) : FVec Ideal S100000x64 .f32 :=
  addf (addf
      (Host.dotGeneral dot_S100000x32_S32x64_S100000x64_1_0_0_1_n_n none
        (Host.divf agg (broadcastInDim S100000x32 ![0, 1] bcast_S100000x1_S100000x32_0_1 (broadcastInDim S100000x1 ![0] bcast_S100000_S100000x1_0
          (maximumf cnt (broadcastInDim S100000 ![] bcast_S_S100000 (constant (F := Ideal) S_ .f32 0x3F800000#32)))))) wl)
      (Host.dotGeneral dot_S100000x32_S32x64_S100000x64_1_0_0_1_n_n none h wr))
    (broadcastInDim S100000x64 ![0, 1] bcast_S1x64_S100000x64_0_1 (broadcastInDim S1x64 ![1] bcast_S64_S1x64_1 b))

/-- The second layer's dense stage. -/
def stage1 (agg h : FVec Ideal S100000x64 .f32) (cnt : FVec Ideal S100000 .f32)
    (wl wr : FVec Ideal S64x64 .f32) (b : FVec Ideal S64 .f32) : FVec Ideal S100000x64 .f32 :=
  addf (addf
      (Host.dotGeneral dot_S100000x64_S64x64_S100000x64_1_0_0_1_n_n none
        (Host.divf agg (broadcastInDim S100000x64 ![0, 1] bcast_S100000x1_S100000x64_0_1 (broadcastInDim S100000x1 ![0] bcast_S100000_S100000x1_0
          (maximumf cnt (broadcastInDim S100000 ![] bcast_S_S100000 (constant (F := Ideal) S_ .f32 0x3F800000#32)))))) wl)
      (Host.dotGeneral dot_S100000x64_S64x64_S100000x64_1_0_0_1_n_n none h wr))
    (broadcastInDim S100000x64 ![0, 1] bcast_S1x64_S100000x64_0_1 (broadcastInDim S1x64 ![1] bcast_S64_S1x64_1 b))

/-- The third layer's dense stage. -/
def stage2 (agg h : FVec Ideal S100000x64 .f32) (cnt : FVec Ideal S100000 .f32)
    (wl wr : FVec Ideal S64x1 .f32) (b : FVec Ideal S1 .f32) : FVec Ideal S100000x1 .f32 :=
  addf (addf
      (Host.dotGeneral dot_S100000x64_S64x1_S100000x1_1_0_0_1_n_n none
        (Host.divf agg (broadcastInDim S100000x64 ![0, 1] bcast_S100000x1_S100000x64_0_1 (broadcastInDim S100000x1 ![0] bcast_S100000_S100000x1_0
          (maximumf cnt (broadcastInDim S100000 ![] bcast_S_S100000 (constant (F := Ideal) S_ .f32 0x3F800000#32)))))) wl)
      (Host.dotGeneral dot_S100000x64_S64x1_S100000x1_1_0_0_1_n_n none h wr))
    (broadcastInDim S100000x1 ![0, 1] bcast_S1x1_S100000x1_0_1 (broadcastInDim S1x1 ![1] bcast_S1_S1x1_1 b))

/-- The activation between the layers: a maximum with zero. -/
def relu64 (y : FVec Ideal S100000x64 .f32) : FVec Ideal S100000x64 .f32 :=
  maximumf y (broadcastInDim S100000x64 ![] bcast_S_S100000x64 (constant (F := Ideal) S_ .f32 0x00000000#32))

/-- The node features after the first layer. -/
def hidden1 (x : FVec Ideal S100000x32 .f32) (ei : IVec S2x1600000 32)
    (wl0 wr0 : FVec Ideal S32x64 .f32) (b0 : FVec Ideal S64 .f32) : FVec Ideal S100000x64 .f32 :=
  relu64 (stage0 (aggregate32 x ei) x (countVector ei) wl0 wr0 b0)

/-- The node features after the second layer. -/
def hidden2 (x : FVec Ideal S100000x32 .f32) (ei : IVec S2x1600000 32)
    (wl0 wr0 : FVec Ideal S32x64 .f32) (b0 : FVec Ideal S64 .f32)
    (wl1 wr1 : FVec Ideal S64x64 .f32) (b1 : FVec Ideal S64 .f32) : FVec Ideal S100000x64 .f32 :=
  relu64 (stage1 (aggregate64 (hidden1 x ei wl0 wr0 b0) ei) (hidden1 x ei wl0 wr0 b0) (countVector ei) wl1 wr1 b1)

/-- The program's result. -/
def result (x : FVec Ideal S100000x32 .f32) (ei : IVec S2x1600000 32)
    (wl0 wr0 : FVec Ideal S32x64 .f32) (b0 : FVec Ideal S64 .f32)
    (wl1 wr1 : FVec Ideal S64x64 .f32) (b1 : FVec Ideal S64 .f32)
    (wl2 wr2 : FVec Ideal S64x1 .f32) (b2 : FVec Ideal S1 .f32) : FVec Ideal S100000 .f32 :=
  shapeCast S100000
    (stage2 (aggregate64 (hidden2 x ei wl0 wr0 b0 wl1 wr1 b1) ei) (hidden2 x ei wl0 wr0 b0 wl1 wr1 b1) (countVector ei) wl2 wr2 b2)
    shapeCasts_S100000x1_S100000

/-- The reference run's composed term is `result` of the argument arrays as launched: the same operations, named. -/
theorem res_eq (m : (ℓ : Loc nD τ sig) → Buf (Elt Ideal) ℓ) (c : Dev nD) :
    Cert.ReferenceIdeal.Value.res_main_v89 (F := Ideal) m c
      = result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) := by
  unfold Cert.ReferenceIdeal.Value.res_main_v89 result hidden2 hidden1 relu64 stage2 stage1 stage0 aggregate64 aggregate32 countVector
    sourceColumn targetColumn source target
  rfl

end Cert.ReferenceIdeal.Net

end
-- ==== Proof.Bridge.lean ====
/-
  The reference's result and the kernel program's result are one function of the argument arrays, over the extended reals.

  Both programs read the edge list through the same index arithmetic, gather and add up the neighbours' features with
  the same two operations (the kernel program narrows the features to a shorter float format before the gather and widens
  the gathered rows back: the identity here), and count the arriving edges with the same operation.  The reference's dense
  stage — the count raised to at least one on the vector, laid out as a column and spread over the features; the bias laid
  out as a row and spread over the nodes — is `Sage.layer` of the neighbour sums, the features, the count COLUMN and the
  bias ROW, which is what the kernel program's stages are stated with.  So layer by layer the two results agree.
-/
import proofs.«112658_j83623013253774_2_alg».proof.Proof.KernelNet
import proofs.«112658_j83623013253774_2_alg».proof.Proof.RefNet
import proofs.«112658_j83623013253774_2_alg».proof.Proof.LibSageStage

noncomputable section

namespace Cert.Bridge

open Idealize.ShloMosaic Idealize.ShloMosaic.ValueIdx

/-! ## The edge list and the two sums -/

theorem targetColumn_eq (ei : IVec Cert.KernelIdeal.S2x1600000 32) : Cert.ReferenceIdeal.Net.targetColumn ei = Cert.KernelIdeal.Net.targetColumn ei := rfl

theorem sourceColumn_eq (ei : IVec Cert.KernelIdeal.S2x1600000 32) : Cert.ReferenceIdeal.Net.sourceColumn ei = Cert.KernelIdeal.Net.sourceColumn ei := rfl

/-- The kernel program's count column is the reference's count vector laid out as a column. -/
theorem count_eq (ei : IVec Cert.KernelIdeal.S2x1600000 32) :
    Cert.KernelIdeal.Net.count ei = shapeCast (⟨2, ![100000, 1]⟩ : Shape) (Cert.ReferenceIdeal.Net.countVector ei) Cert.KernelIdeal.Gen.shapeCasts_S100000_S100000x1 := by
  unfold Cert.KernelIdeal.Net.count Cert.ReferenceIdeal.Net.countVector
  rw [targetColumn_eq]
  rfl

/-- Gathering from the narrowed features and widening the gathered rows is gathering from the features. -/
theorem aggregate32_eq (h : FVec Ideal Cert.KernelIdeal.S100000x32 .f32) (ei : IVec Cert.KernelIdeal.S2x1600000 32) :
    Cert.ReferenceIdeal.Net.aggregate32 h ei = Cert.KernelIdeal.Net.aggregate32 (Cert.KernelIdeal.Net.features0 h) ei := by
  unfold Cert.ReferenceIdeal.Net.aggregate32 Cert.KernelIdeal.Net.aggregate32 Cert.KernelIdeal.Net.features0
  rw [targetColumn_eq, sourceColumn_eq]
  rfl

theorem aggregate64_eq (h : FVec Ideal Cert.KernelIdeal.S100000x64 .bf16) (ei : IVec Cert.KernelIdeal.S2x1600000 32) :
    Cert.ReferenceIdeal.Net.aggregate64 h ei = Cert.KernelIdeal.Net.aggregate64 h ei := by
  unfold Cert.ReferenceIdeal.Net.aggregate64 Cert.KernelIdeal.Net.aggregate64
  rw [targetColumn_eq, sourceColumn_eq]
  rfl

/-! ## The dense stages -/

theorem stage0_eq (agg h : FVec Ideal Cert.KernelIdeal.S100000x32 .f32) (cntv : FVec Ideal Cert.KernelIdeal.S100000 .f32)
    (wl wr : FVec Ideal Cert.KernelIdeal.S32x64 .f32) (b : FVec Ideal Cert.KernelIdeal.S64 .f32) :
    Cert.ReferenceIdeal.Net.stage0 agg h cntv wl wr b
      = Cert.Sage.layer (M := 100000) (K := 32) (N := 64) agg h
          (shapeCast (⟨2, ![100000, 1]⟩ : Shape) cntv Cert.KernelIdeal.Gen.shapeCasts_S100000_S100000x1) wl wr
          (shapeCast (⟨2, ![1, 64]⟩ : Shape) b Cert.KernelIdeal.Gen.shapeCasts_S64_S1x64) := by
  unfold Cert.ReferenceIdeal.Net.stage0
  exact Cert.Sage.hostStage_eq (M := 100000) (K := 32) (N := 64) Cert.ReferenceIdeal.dot_S100000x32_S32x64_S100000x64_1_0_0_1_n_n rfl agg h cntv wl wr b
    Cert.ReferenceIdeal.Gen.bcast_S_S100000 Cert.ReferenceIdeal.Gen.bcast_S100000_S100000x1_0 Cert.ReferenceIdeal.Gen.bcast_S100000x1_S100000x32_0_1 Cert.ReferenceIdeal.Gen.bcast_S64_S1x64_1
    Cert.ReferenceIdeal.Gen.bcast_S1x64_S100000x64_0_1 Cert.KernelIdeal.Gen.shapeCasts_S100000_S100000x1 Cert.KernelIdeal.Gen.shapeCasts_S64_S1x64

theorem stage1_eq (agg h : FVec Ideal Cert.KernelIdeal.S100000x64 .f32) (cntv : FVec Ideal Cert.KernelIdeal.S100000 .f32)
    (wl wr : FVec Ideal Cert.KernelIdeal.S64x64 .f32) (b : FVec Ideal Cert.KernelIdeal.S64 .f32) :
    Cert.ReferenceIdeal.Net.stage1 agg h cntv wl wr b
      = Cert.Sage.layer (M := 100000) (K := 64) (N := 64) agg h
          (shapeCast (⟨2, ![100000, 1]⟩ : Shape) cntv Cert.KernelIdeal.Gen.shapeCasts_S100000_S100000x1) wl wr
          (shapeCast (⟨2, ![1, 64]⟩ : Shape) b Cert.KernelIdeal.Gen.shapeCasts_S64_S1x64) := by
  unfold Cert.ReferenceIdeal.Net.stage1
  exact Cert.Sage.hostStage_eq (M := 100000) (K := 64) (N := 64) Cert.ReferenceIdeal.dot_S100000x64_S64x64_S100000x64_1_0_0_1_n_n rfl agg h cntv wl wr b
    Cert.ReferenceIdeal.Gen.bcast_S_S100000 Cert.ReferenceIdeal.Gen.bcast_S100000_S100000x1_0 Cert.ReferenceIdeal.Gen.bcast_S100000x1_S100000x64_0_1 Cert.ReferenceIdeal.Gen.bcast_S64_S1x64_1
    Cert.ReferenceIdeal.Gen.bcast_S1x64_S100000x64_0_1 Cert.KernelIdeal.Gen.shapeCasts_S100000_S100000x1 Cert.KernelIdeal.Gen.shapeCasts_S64_S1x64

theorem stage2_eq (agg h : FVec Ideal Cert.KernelIdeal.S100000x64 .f32) (cntv : FVec Ideal Cert.KernelIdeal.S100000 .f32)
    (wl wr : FVec Ideal Cert.KernelIdeal.S64x1 .f32) (b : FVec Ideal Cert.KernelIdeal.S1 .f32) :
    Cert.ReferenceIdeal.Net.stage2 agg h cntv wl wr b
      = Cert.Sage.layer (M := 100000) (K := 64) (N := 1) agg h
          (shapeCast (⟨2, ![100000, 1]⟩ : Shape) cntv Cert.KernelIdeal.Gen.shapeCasts_S100000_S100000x1) wl wr
          (shapeCast (⟨2, ![1, 1]⟩ : Shape) b Cert.KernelIdeal.Gen.shapeCasts_S1_S1x1) := by
  unfold Cert.ReferenceIdeal.Net.stage2
  exact Cert.Sage.hostStage_eq (M := 100000) (K := 64) (N := 1) Cert.ReferenceIdeal.dot_S100000x64_S64x1_S100000x1_1_0_0_1_n_n rfl agg h cntv wl wr b
    Cert.ReferenceIdeal.Gen.bcast_S_S100000 Cert.ReferenceIdeal.Gen.bcast_S100000_S100000x1_0 Cert.ReferenceIdeal.Gen.bcast_S100000x1_S100000x64_0_1 Cert.ReferenceIdeal.Gen.bcast_S1_S1x1_1
    Cert.ReferenceIdeal.Gen.bcast_S1x1_S100000x1_0_1 Cert.KernelIdeal.Gen.shapeCasts_S100000_S100000x1 Cert.KernelIdeal.Gen.shapeCasts_S1_S1x1

/-- The activation between the layers, entry by entry. -/
theorem relu64_apply (y : FVec Ideal Cert.KernelIdeal.S100000x64 .f32) (i : Cert.KernelIdeal.S100000x64.Idx) :
    Cert.ReferenceIdeal.Net.relu64 y i = max (y i) Cert.Sage.zeroWord := by
  unfold Cert.ReferenceIdeal.Net.relu64
  rw [maximumf_apply, broadcastInDim_apply _ Cert.ReferenceIdeal.Gen.bcast_S_S100000x64 _ i ix0 (fun a => a.elim0)]
  rfl

/-! ## The layers -/

theorem hidden1_eq (x : FVec Ideal Cert.KernelIdeal.S100000x32 .f32) (ei : IVec Cert.KernelIdeal.S2x1600000 32)
    (wl0 wr0 : FVec Ideal Cert.KernelIdeal.S32x64 .f32) (b0 : FVec Ideal Cert.KernelIdeal.S64 .f32) :
    Cert.ReferenceIdeal.Net.hidden1 x ei wl0 wr0 b0 = Cert.KernelIdeal.Net.hidden1 x ei wl0 wr0 b0 := by
  unfold Cert.ReferenceIdeal.Net.hidden1 Cert.KernelIdeal.Net.hidden1
  funext i
  rw [relu64_apply, stage0_eq, aggregate32_eq, count_eq]
  rfl

theorem hidden2_eq (x : FVec Ideal Cert.KernelIdeal.S100000x32 .f32) (ei : IVec Cert.KernelIdeal.S2x1600000 32)
    (wl0 wr0 : FVec Ideal Cert.KernelIdeal.S32x64 .f32) (b0 : FVec Ideal Cert.KernelIdeal.S64 .f32)
    (wl1 wr1 : FVec Ideal Cert.KernelIdeal.S64x64 .f32) (b1 : FVec Ideal Cert.KernelIdeal.S64 .f32) :
    Cert.ReferenceIdeal.Net.hidden2 x ei wl0 wr0 b0 wl1 wr1 b1 = Cert.KernelIdeal.Net.hidden2 x ei wl0 wr0 b0 wl1 wr1 b1 := by
  unfold Cert.ReferenceIdeal.Net.hidden2 Cert.KernelIdeal.Net.hidden2
  funext i
  rw [relu64_apply, stage1_eq, hidden1_eq, aggregate64_eq, count_eq]
  rfl

/-- THE TWO RESULTS are one function of the argument arrays. -/
theorem result_eq (x : FVec Ideal Cert.KernelIdeal.S100000x32 .f32) (ei : IVec Cert.KernelIdeal.S2x1600000 32)
    (wl0 wr0 : FVec Ideal Cert.KernelIdeal.S32x64 .f32) (b0 : FVec Ideal Cert.KernelIdeal.S64 .f32)
    (wl1 wr1 : FVec Ideal Cert.KernelIdeal.S64x64 .f32) (b1 : FVec Ideal Cert.KernelIdeal.S64 .f32)
    (wl2 wr2 : FVec Ideal Cert.KernelIdeal.S64x1 .f32) (b2 : FVec Ideal Cert.KernelIdeal.S1 .f32) :
    Cert.ReferenceIdeal.Net.result x ei wl0 wr0 b0 wl1 wr1 b1 wl2 wr2 b2 = Cert.KernelIdeal.Net.score x ei wl0 wr0 b0 wl1 wr1 b1 wl2 wr2 b2 := by
  unfold Cert.ReferenceIdeal.Net.result Cert.KernelIdeal.Net.score Cert.KernelIdeal.Net.scoreColumn
  rw [stage2_eq, hidden2_eq, aggregate64_eq, count_eq]

end Cert.Bridge

end
-- ==== Proof.lean ====
/-
  The certificate of a three-layer mean-aggregation graph network: the kernel program against its jnp reference, equal
  as extended reals.

  THE MATHEMATICS.  With `A h` the per-target-node sum of the source nodes' feature rows `h[src]` and `n` the number of
  edges arriving at each node, a layer is

      L(h)(p, q) = (∑ k, (A h (p, k) / max (n p) 1) * wl (k, q) + ∑ k, h (p, k) * wr (k, q)) + b q,

  the network is `L₂ (relu (L₁ (relu (L₀ x))))` laid out as a vector.  The reference computes exactly this on the host.  The
  kernel program computes `A` and `n` on the host with the same gather and scatter-add operations and each `L` in a
  region that walks the 100000 node rows in twenty tiles of 5000; the operands of its products and the features it keeps
  between layers are narrowed to a shorter float format, which is the identity on the extended reals.  A row of `L(h)`
  depends on the same row of `A h`, `h` and `n` only, so a tile of the result is `L` of the tiles, the twenty tiles cover
  the array, and each region's output is `L` of the whole arrays (Region0 / Region1 / Region2 over LibSageLayer and LibSageStage).
  Walking the program's buffers from the launch to the return then gives its result as one function `Net.score` of the
  eleven argument arrays (KernelRun over KernelNet); the reference's composed term is `Net.result` of its arguments
  (RefNet); and the two functions agree layer by layer — the same sums and counts, the same two products and bias added
  in the same order (Bridge).  No law of the extended reals beyond this bookkeeping is used, so the finiteness of the
  inputs is never opened.

  The three frames are the runs with the result dropped; the kernel program's idealization rewrote nothing, so
  `preserves` has nothing to state.
-/
import proofs.«112658_j83623013253774_2_alg».proof.Defs
import proofs.«112658_j83623013253774_2_alg».proof.Proof.Gen.Kernel
import proofs.«112658_j83623013253774_2_alg».proof.Proof.PatchedKernelFrame
import proofs.«112658_j83623013253774_2_alg».proof.Proof.Gen.KernelIdeal
import proofs.«112658_j83623013253774_2_alg».proof.Proof.PatchedKernelIdealFrame
import proofs.«112658_j83623013253774_2_alg».proof.Proof.Gen.ReferenceIdeal
import proofs.«112658_j83623013253774_2_alg».proof.Proof.Gen.ReferenceIdeal.Run
import proofs.«112658_j83623013253774_2_alg».proof.Proof.Gen.Pre_finite_inputs
import proofs.«112658_j83623013253774_2_alg».proof.Proof.KernelRun
import proofs.«112658_j83623013253774_2_alg».proof.Proof.Region0
import proofs.«112658_j83623013253774_2_alg».proof.Proof.Region1
import proofs.«112658_j83623013253774_2_alg».proof.Proof.Region2
import proofs.«112658_j83623013253774_2_alg».proof.Proof.Bridge
import Idealize.ShloMosaic.Adequacy
import Idealize.ShloMosaic.Init

noncomputable section

namespace Cert.Proof

open Idealize.ShloMosaic Idealize.ShloMosaic.TcCoe Idealize.SL.Sem

/-- The kernel program's run at the ideal instance: its result array ends at `Net.score` of the argument arrays as
    launched, the arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
      r.2.mem ((c.tc : Thread Cert.KernelIdeal.nD Cert.KernelIdeal.τ).loc Cert.KernelIdeal.main_v49)
        = Cert.KernelIdeal.Net.score (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)) :=
  (θ_run (Cert.KernelIdeal.defs (F := Ideal)) _ _).mono
    (fun _ h c => ⟨(h c).1.trans (Cert.KernelIdeal.Hand.result_eq Cert.KernelIdeal.Hand.final0 Cert.KernelIdeal.Hand.final1
      Cert.KernelIdeal.Hand.final2 m ρ c), (h c).2⟩)
    (Cert.KernelIdeal.Hand.run_value (F := Ideal) m ρ)

theorem frame_kernel : Cert.frame_Kernel := fun m ρ _ => Cert.Kernel.GenP.frame m ρ

theorem frame_kernelIdeal : Cert.frame_KernelIdeal := fun m ρ _ => Cert.KernelIdeal.GenP.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to restate. -/
theorem preserves : Cert.preserves_Kernel_KernelIdeal := trivial

/-- From memories agreeing on the arguments both programs end with their result arrays at one function of the arguments. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [Cert.ReferenceIdeal.Net.res_eq, e0, e1, e2, e3, e4, e5, e6, e7, e8, e9, e10]
  exact Cert.Bridge.result_eq _ _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
